-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x1 : Shape := ⟨2, ![640000, 1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x640000 32) (main_arg2 : FVec F S640000x1 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x640000 : Shape := ⟨2, ![2, 640000]⟩
abbrev S640000x1 : Shape := ⟨2, ![640000, 1]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S128x384 : Shape := ⟨2, ![128, 384]⟩
abbrev S384 : Shape := ⟨1, ![384]⟩
abbrev S1x384 : Shape := ⟨2, ![1, 384]⟩
abbrev S1x128 : Shape := ⟨2, ![1, 128]⟩
abbrev S_ : Shape := ⟨0, ![]⟩
abbrev S640000x128 : Shape := ⟨2, ![640000, 128]⟩
abbrev S10000x128 : Shape := ⟨2, ![10000, 128]⟩
abbrev S10000x384 : Shape := ⟨2, ![10000, 384]⟩

abbrev nBuf : Space → Nat
  | .hbm => 63
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S128x384, .f32⟩
  | .hbm, ⟨24, _⟩ => ⟨S384, .f32⟩
  | .hbm, ⟨25, _⟩ => ⟨S1x384, .f32⟩
  | .hbm, ⟨26, _⟩ => ⟨S128x384, .f32⟩
  | .hbm, ⟨27, _⟩ => ⟨S384, .f32⟩
  | .hbm, ⟨28, _⟩ => ⟨S1x384, .f32⟩
  | .hbm, ⟨29, _⟩ => ⟨S1x128, .f32⟩
  | .hbm, ⟨30, _⟩ => ⟨S1x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S50000x128, .f32⟩
  | .hbm, ⟨44, _⟩ => ⟨S640000x1, .i32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S_, .f32⟩
  | .hbm, ⟨59, _⟩ => ⟨S50000x128, .f32⟩
  | .hbm, ⟨60, _⟩ => ⟨S640000x1, .i32⟩
  | .hbm, ⟨61, _⟩ => ⟨S50000x128, .f32⟩
  | .hbm, ⟨62, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x384, .f32⟩
  | .local _ .vmem, ⟨5, _⟩ => ⟨S1x384, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x384, .f32⟩
  | .local _ .vmem, ⟨15, _⟩ => ⟨S1x384, .f32⟩
  | .local _ .vmem, ⟨16, _⟩ => ⟨S128x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  shapeCasts_S128_S1x128 : S128.ShapeCasts S1x128
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128x128_S128x128_0_0 : ∀ a, (![0, 0] : Fin 2 → Nat) a + S128x128.size a ≤ S128x128.size a
  h_S128x128 : 0 < S128x128.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S10000x384 : S1x384.Broadcasts S10000x384
  slices_S10000x384_o0_0_S10000x128 : S10000x384.Slices ![0, 0] S10000x128
  slices_S10000x384_o0_128_S10000x128 : S10000x384.Slices ![0, 128] S10000x128
  slices_S10000x384_o0_256_S10000x128 : S10000x384.Slices ![0, 256] S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S10000x128_S128x384_S10000x384_1_0_0_1_n_n_wf : DotDims.WF S10000x128 S128x384 S10000x384 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x1 : Shape := ⟨2, ![640000, 1]⟩
abbrev S128x128 : Shape := ⟨2, ![128, 128]⟩
abbrev S128 : Shape := ⟨1, ![128]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x128 : Shape := ⟨2, ![640000, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S50000x128, .f32⟩
  | .hbm, ⟨40, _⟩ => ⟨S640000x1, .i32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S1x640000, .i32⟩
  | .hbm, ⟨65, _⟩ => ⟨S640000, .i32⟩
  | .hbm, ⟨66, _⟩ => ⟨S1x640000, .i32⟩
  | .hbm, ⟨67, _⟩ => ⟨S640000, .i32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000x128, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S50000x128, .f32⟩
  | .hbm, ⟨81, _⟩ => ⟨S640000x1, .i32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call0_cst : Ref sig .tc := ⟨.hbm, 57, rfl⟩
abbrev main_call0_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_1 : Ref sig .tc := ⟨.hbm, 68, rfl⟩
abbrev main_v44 : Ref sig .tc := ⟨.hbm, 69, rfl⟩
abbrev main_v45 : Ref sig .tc := ⟨.hbm, 70, rfl⟩
abbrev main_c_2 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_3 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.WordBlocks.lean ====
/-
  One fused graph layer on a block of 10000 rows, as each of the program's two regions runs it.

  A region walks five grid points.  At point t it is handed rows 10000·t … 10000·t + 9999 of the node features x and of
  the aggregated messages agg, and (the same block at every point) the stacked weight matrix [Wa | Wb | Wc], the stacked
  bias row [ba | bb | bc], the convolution weight Wconv and its bias row; it stores, over the whole output block,
      max( (x·Wa + ba) + (agg·Wconv + bconv) + (x·Wb + bb) ∘ (x·Wc + bc), 0 ).
  This file states, for entry contents V of the buffers that are a parameter, what each window's staging buffer holds
  before and after the body at a point (the inputs their blocks, the output the body's one store of the payload of the
  six loaded blocks), runs the body once symbolically to prove it, and packages that as the pipeline's proof data and
  body obligation.  Nothing here depends on the float instance: it is read at words for one program and at extended
  reals for the other.
-/
import proofs.«155698_j38422777430259_2_alg».proof.Proof.Gen.Kernel.Launch
import proofs.«155698_j38422777430259_2_alg».proof.Proof.Gen.Kernel.Skeleton
import proofs.«155698_j38422777430259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when a region is entered: a parameter, fixed per region by the run
variable (V : (c : Dev nD) → (b : Ref sig .tc) → Buf (Elt F) ((c : Thread nD τ).loc b))

/-! ## The rectangles the body reads and writes: every one the whole staging buffer -/

abbrev rRows : Rect S10000x128 := Rect.unit (s := S10000x128) ![0, 0] S10000x128.size inb_S10000x128_S10000x128_0_0
abbrev rStacked : Rect S128x384 := Rect.unit (s := S128x384) ![0, 0] S128x384.size inb_S128x384_S128x384_0_0
abbrev rStackedBias : Rect S1x384 := Rect.unit (s := S1x384) ![0, 0] S1x384.size inb_S1x384_S1x384_0_0
abbrev rSquare : Rect S128x128 := Rect.unit (s := S128x128) ![0, 0] S128x128.size inb_S128x128_S128x128_0_0
abbrev rBias : Rect S1x128 := Rect.unit (s := S1x128) ![0, 0] S1x128.size inb_S1x128_S1x128_0_0

/-- One store over the whole 10000×128 buffer covers every entry of it. -/
theorem store_covers (p0 : Vec F S10000x128 .f32) (y : S10000x128.Idx) :
    ∃ pc ∈ ([⟨rRows, p0⟩] : List (View.Piece (Elt F) S10000x128 .f32)), y ∈ pc.1.set :=
  View.cover_of_tiled [⟨rRows, p0⟩] S10000x128.size (by rfl) y

/-! # The first layer's region (pipeline 0) -/

/-- Block t of window w of the first region, cut from the window's array as the region finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds the window's block at every point, whether the pipeline fetched
    there or kept the previous point's block (its block index had then not moved). -/

theorem beforeA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem beforeA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem beforeA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)
theorem beforeA_3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)
theorem beforeA_4_of {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)
theorem beforeA_5_of {c : Dev nD} (dat : Dat τ (Elt F) Unit ℕ (UR sig nD τ) ℕ cfg0 c) (hA : dat.A 5 = V c (Pipeline.arrRef spec0 5))
    (hafter : ∀ t, dat.after 5 t = blkA V c 5 t) (t : Fin cfg0.N) (d) : dat.before 5 t d = blkA V c 5 t :=
  (dat.before_in_eq_fetched 5 rfl (fun _ => rfl) (fun _ _ _ => rfl) (fun t => by rw [hafter]; unfold Dat.blockOf blkA; rw [hA]; try rfl) t d).trans
    (by unfold Dat.fetched Dat.blockOf blkA; rw [hA]; try rfl)

/-- The output window's staging buffer after the body: the one store, over the whole buffer, of the layer's payload of
    the six input blocks (x, agg, the stacked weights, the stacked bias row, the convolution weight, its bias row). -/
def outA (x : Vec F S10000x128 .f32) (agg : Vec F S10000x128 .f32) (wabc : Vec F S128x384 .f32) (babc : Vec F S1x384 .f32)
    (wconv : Vec F S128x128 .f32) (bconv : Vec F S1x128 .f32) : Vec F S10000x128 .f32 :=
  View.canon [⟨rRows, k0_pay1 (View.ld x rRows) (View.ld agg rRows) (View.ld wabc rStacked) (View.ld wconv rSquare) (View.ld babc rStackedBias) (View.ld bconv rBias)⟩]

set_option maxHeartbeats 1000000 in
/-- The body on whole staging memrefs — the inputs' at known contents, the output's at anything — runs to its
    continuation with the inputs untouched and the output's at `outA` of the inputs. -/
theorem bodyA_runs (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x384 .f32) (harg3 : arg3.IsWhole) (arg4 : Memref sig .tc .vmem S1x384 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S10000x128 .f32) (harg7 : arg7.IsWhole)
    (x0 : Vec F S10000x128 .f32) (x1 : Vec F S10000x128 .f32) (x2 : Vec F S128x384 .f32) (x3 : Vec F S1x384 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outA x0 x1 x2 x3 x4 x5)) -∗ K ⟨⟩))
      ⊢ wp frame (wpE (defs₀ (F := F)) Variants.none c none) E
          (cc0__fused_layer_kernel i arg1 harg1 arg2 harg2 arg3 harg3 arg4 harg4 arg5 harg5 arg6 harg6 arg7 harg7) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-- The first region's proof data on core c: the arrays as the region finds them; after the body at point t each
    input's buffer at its block and the output's at the layer's store of the six blocks; the scoped rest and the
    generator register untouched; nothing owed; full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => blkA V c 5 t
    | ⟨6, _⟩ => outA (blkA V c 0 t) (blkA V c 1 t) (blkA V c 2 t) (blkA V c 3 t) (blkA V c 4 t) (blkA V c 5 t)
  Φ _ := Pipeline.ΦA spec0 c
  q _ := fullShare
  owed _ := 0

theorem datA_A (c : Dev nD) (w : Fin cfg0.W) : (datA V c).A w = V c (Pipeline.arrRef spec0 w) := by
  dsimp only [datA]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) : (datA V c).after 4 t = blkA V c 4 t := by dsimp only [datA]
theorem afterA_5 (c : Dev nD) (t : Fin cfg0.N) : (datA V c).after 5 t = blkA V c 5 t := by dsimp only [datA]
theorem afterA_6 (c : Dev nD) (t : Fin cfg0.N) : (datA V c).after 6 t
    = outA (blkA V c 0 t) (blkA V c 1 t) (blkA V c 2 t) (blkA V c 3 t) (blkA V c 4 t) (blkA V c 5 t) := by dsimp only [datA]

theorem beforeA_0 (c : Dev nD) (t : Fin cfg0.N) (d) : (datA V c).before 0 t d = blkA V c 0 t :=
  beforeA_0_of V (datA V c) (datA_A V c 0) (afterA_0 V c) t d
theorem beforeA_1 (c : Dev nD) (t : Fin cfg0.N) (d) : (datA V c).before 1 t d = blkA V c 1 t :=
  beforeA_1_of V (datA V c) (datA_A V c 1) (afterA_1 V c) t d
theorem beforeA_2 (c : Dev nD) (t : Fin cfg0.N) (d) : (datA V c).before 2 t d = blkA V c 2 t :=
  beforeA_2_of V (datA V c) (datA_A V c 2) (afterA_2 V c) t d
theorem beforeA_3 (c : Dev nD) (t : Fin cfg0.N) (d) : (datA V c).before 3 t d = blkA V c 3 t :=
  beforeA_3_of V (datA V c) (datA_A V c 3) (afterA_3 V c) t d
theorem beforeA_4 (c : Dev nD) (t : Fin cfg0.N) (d) : (datA V c).before 4 t d = blkA V c 4 t :=
  beforeA_4_of V (datA V c) (datA_A V c 4) (afterA_4 V c) t d
theorem beforeA_5 (c : Dev nD) (t : Fin cfg0.N) (d) : (datA V c).before 5 t d = blkA V c 5 t :=
  beforeA_5_of V (datA V c) (datA_A V c 5) (afterA_5 V c) t d

/-- What the body is called with at point t, the windows one by one, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d))
    ∗ (∃ d, owns (c : Thread nD τ) (st0_6 t) fullShare ((datA V c).before 6 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t)
    ∗ owns (c : Thread nD τ) (st0_6 t) fullShare ((datA V c).after 6 t))

/-- The body at any point: the inputs' memrefs hold their blocks, so `bodyA_runs` applies; the invariant and what the core
    owes pass through unread. -/
theorem bodyA_at (c : Dev nD) (t : Fin cfg0.N) :
    preA V c t ⊢ wp frame (wpE (defs₀ (F := F)) Variants.none c none) Set.univ (bodyAt0 t) (fun _ => postA V c t) := by
  unfold preA postA bodyAt0
  simp only [beforeA_0, beforeA_1, beforeA_2, beforeA_3, beforeA_4, beforeA_5]
  rw [show (datA V c).Φ t.succ = (datA V c).Φ t.castSucc from rfl,
    show (datA V c).owesAt () t.succ = (datA V c).owesAt () t.castSucc from rfl,
    afterA_0, afterA_1, afterA_2, afterA_3, afterA_4, afterA_5, afterA_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyA_runs c Set.univ _ _ _ _ _ _ _ _ _ _ _ _ _ _ _ (blkA V c 0 t) (blkA V c 1 t) (blkA V c 2 t) (blkA V c 3 t) (blkA V c 4 t) (blkA V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for the first region, at every point. -/
theorem obligationA (c : Dev nD) : BodyObligation (datA (F := F) V c) (defs₀ (F := F)) Variants.none () Set.univ := fun t => by
  rw [bigSep_W0, bigSep_W0]
  exact bodyA_at V c t

/-! # The second layer's region (pipeline 1) -/

/-- Block t of window w of the second region, cut from the window's array as the region finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem beforeB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem beforeB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)
theorem beforeB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)
theorem beforeB_3_of {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)
theorem beforeB_4_of {c : Dev nD} (dat : Dat τ (Elt F) Unit ℕ (UR sig nD τ) ℕ cfg1 c) (hA : dat.A 4 = V c (Pipeline.arrRef spec1 4))
    (hafter : ∀ t, dat.after 4 t = blkB V c 4 t) (t : Fin cfg1.N) (d) : dat.before 4 t d = blkB V c 4 t :=
  (dat.before_in_eq_fetched 4 rfl (fun _ => rfl) (fun _ _ _ => rfl) (fun t => by rw [hafter]; unfold Dat.blockOf blkB; rw [hA]; try rfl) t d).trans
    (by unfold Dat.fetched Dat.blockOf blkB; rw [hA]; try rfl)
theorem beforeB_5_of {c : Dev nD} (dat : Dat τ (Elt F) Unit ℕ (UR sig nD τ) ℕ cfg1 c) (hA : dat.A 5 = V c (Pipeline.arrRef spec1 5))
    (hafter : ∀ t, dat.after 5 t = blkB V c 5 t) (t : Fin cfg1.N) (d) : dat.before 5 t d = blkB V c 5 t :=
  (dat.before_in_eq_fetched 5 rfl (fun _ => rfl) (fun _ _ _ => rfl) (fun t => by rw [hafter]; unfold Dat.blockOf blkB; rw [hA]; try rfl) t d).trans
    (by unfold Dat.fetched Dat.blockOf blkB; rw [hA]; try rfl)

/-- The second region's output buffer after the body: the one store of the layer's payload of the six input blocks
    (the first layer's result h, its aggregated messages, and the second layer's stacked weights and biases). -/
def outB (x : Vec F S10000x128 .f32) (agg : Vec F S10000x128 .f32) (wabc : Vec F S128x384 .f32) (babc : Vec F S1x384 .f32)
    (wconv : Vec F S128x128 .f32) (bconv : Vec F S1x128 .f32) : Vec F S10000x128 .f32 :=
  View.canon [⟨rRows, k1_pay1 (View.ld x rRows) (View.ld agg rRows) (View.ld wabc rStacked) (View.ld wconv rSquare) (View.ld babc rStackedBias) (View.ld bconv rBias)⟩]

set_option maxHeartbeats 1000000 in
/-- The second region's body on whole staging memrefs runs to its continuation with the inputs untouched and the
    output's at `outB` of the inputs. -/
theorem bodyB_runs (c : Dev nD) (E : Set ℕ) (i : grid1.Coords)
    (arg1 : Memref sig .tc .vmem S10000x128 .f32) (harg1 : arg1.IsWhole) (arg2 : Memref sig .tc .vmem S10000x128 .f32) (harg2 : arg2.IsWhole)
    (arg3 : Memref sig .tc .vmem S128x384 .f32) (harg3 : arg3.IsWhole) (arg4 : Memref sig .tc .vmem S1x384 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S10000x128 .f32) (harg7 : arg7.IsWhole)
    (x0 : Vec F S10000x128 .f32) (x1 : Vec F S10000x128 .f32) (x2 : Vec F S128x384 .f32) (x3 : Vec F S1x384 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outB x0 x1 x2 x3 x4 x5)) -∗ K ⟨⟩))
      ⊢ wp frame (wpE (defs₀ (F := F)) Variants.none c none) E
          (cc1__fused_layer_kernel i arg1 harg1 arg2 harg2 arg3 harg3 arg4 harg4 arg5 harg5 arg6 harg6 arg7 harg7) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-- The second region's proof data on core c, in the same shape as the first's. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => blkB V c 5 t
    | ⟨6, _⟩ => outB (blkB V c 0 t) (blkB V c 1 t) (blkB V c 2 t) (blkB V c 3 t) (blkB V c 4 t) (blkB V c 5 t)
  Φ _ := Pipeline.ΦA spec1 c
  q _ := fullShare
  owed _ := 0

theorem datB_A (c : Dev nD) (w : Fin cfg1.W) : (datB V c).A w = V c (Pipeline.arrRef spec1 w) := by
  dsimp only [datB]

theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) : (datB V c).after 4 t = blkB V c 4 t := by dsimp only [datB]
theorem afterB_5 (c : Dev nD) (t : Fin cfg1.N) : (datB V c).after 5 t = blkB V c 5 t := by dsimp only [datB]
theorem afterB_6 (c : Dev nD) (t : Fin cfg1.N) : (datB V c).after 6 t
    = outB (blkB V c 0 t) (blkB V c 1 t) (blkB V c 2 t) (blkB V c 3 t) (blkB V c 4 t) (blkB V c 5 t) := by dsimp only [datB]

theorem beforeB_0 (c : Dev nD) (t : Fin cfg1.N) (d) : (datB V c).before 0 t d = blkB V c 0 t :=
  beforeB_0_of V (datB V c) (datB_A V c 0) (afterB_0 V c) t d
theorem beforeB_1 (c : Dev nD) (t : Fin cfg1.N) (d) : (datB V c).before 1 t d = blkB V c 1 t :=
  beforeB_1_of V (datB V c) (datB_A V c 1) (afterB_1 V c) t d
theorem beforeB_2 (c : Dev nD) (t : Fin cfg1.N) (d) : (datB V c).before 2 t d = blkB V c 2 t :=
  beforeB_2_of V (datB V c) (datB_A V c 2) (afterB_2 V c) t d
theorem beforeB_3 (c : Dev nD) (t : Fin cfg1.N) (d) : (datB V c).before 3 t d = blkB V c 3 t :=
  beforeB_3_of V (datB V c) (datB_A V c 3) (afterB_3 V c) t d
theorem beforeB_4 (c : Dev nD) (t : Fin cfg1.N) (d) : (datB V c).before 4 t d = blkB V c 4 t :=
  beforeB_4_of V (datB V c) (datB_A V c 4) (afterB_4 V c) t d
theorem beforeB_5 (c : Dev nD) (t : Fin cfg1.N) (d) : (datB V c).before 5 t d = blkB V c 5 t :=
  beforeB_5_of V (datB V c) (datB_A V c 5) (afterB_5 V c) t d

/-- What the second region's body is called with at point t, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d))
    ∗ (∃ d, owns (c : Thread nD τ) (st1_5 t) fullShare ((datB V c).before 5 t d))
    ∗ (∃ d, owns (c : Thread nD τ) (st1_6 t) fullShare ((datB V c).before 6 t d)))

/-- and what it returns. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t)
    ∗ owns (c : Thread nD τ) (st1_5 t) fullShare ((datB V c).after 5 t)
    ∗ owns (c : Thread nD τ) (st1_6 t) fullShare ((datB V c).after 6 t))

theorem bodyB_at (c : Dev nD) (t : Fin cfg1.N) :
    preB V c t ⊢ wp frame (wpE (defs₀ (F := F)) Variants.none c none) Set.univ (bodyAt1 t) (fun _ => postB V c t) := by
  unfold preB postB bodyAt1
  simp only [beforeB_0, beforeB_1, beforeB_2, beforeB_3, beforeB_4, beforeB_5]
  rw [show (datB V c).Φ t.succ = (datB V c).Φ t.castSucc from rfl,
    show (datB V c).owesAt () t.succ = (datB V c).owesAt () t.castSucc from rfl,
    afterB_0, afterB_1, afterB_2, afterB_3, afterB_4, afterB_5, afterB_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyB_runs c Set.univ _ _ _ _ _ _ _ _ _ _ _ _ _ _ _ (blkB V c 0 t) (blkB V c 1 t) (blkB V c 2 t) (blkB V c 3 t) (blkB V c 4 t) (blkB V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for the second region, at every point. -/
theorem obligationB (c : Dev nD) : BodyObligation (datB (F := F) V c) (defs₀ (F := F)) Variants.none () Set.univ := fun t => by
  rw [bigSep_W1, bigSep_W1]
  exact bodyB_at V c t

end Cert.Kernel.Hand

end
-- ==== Proof.WordRun.lean ====
/-
  The program's run from launch to return.

  @main is four items in a row: the host operations that build the first layer's operands (the two index rows of the edge
  list, the three stacked weight matrices and bias rows, and the first aggregation — gather the source rows of x, scale
  each by its edge weight, sum into the destination rows), the first layer's region, the host operations that repeat the
  aggregation on the first layer's result, and the second layer's region.  This file names the buffers' contents at each
  of the five boundaries as a fold from the launch memory — a stretch of host operations applies them in order; a region
  leaves its input arrays as it found them and its output array at what its five write-backs leave — and runs the program
  through them.  The run ends with every buffer outside a region's scratch at the last boundary's contents: the arguments
  at their launch contents (no host operation and no region writes one), the result at what the second region leaves.
-/
import proofs.«155698_j38422777430259_2_alg».proof.Proof.WordBlocks
import proofs.«155698_j38422777430259_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- Core c's buffers at launch. -/
abbrev atLaunch : Dev nD → Valuation τ sig (Elt F) := fun c b => (s₀ m ρ).mem ((c : Dev nD), b)
/-- When the first layer's region is entered: after the first stretch of host operations. -/
abbrev atLayer1 : Dev nD → Valuation τ sig (Elt F) := fun c => StableHlo.after hostOps0 (atLaunch m ρ c)
/-- The same, read at the TensorCore's references. -/
abbrev entry1 : (c : Dev nD) → (b : Ref sig .tc) → Buf (Elt F) ((c : Thread nD τ).loc b) := fun c b => atLayer1 m ρ c b
/-- When the first region is left: its arrays at what the pipeline leaves, every other buffer as entered. -/
def pastLayer1 (c : Dev nD) : Valuation τ sig (Elt F) :=
  Pipeline.withArrays spec0 c (atLayer1 m ρ c) fun w => (datA (entry1 m ρ) c).arrAt w cfg0.N
theorem pastLayer1_arr (c : Dev nD) (w : Fin cfg0.W) :
    pastLayer1 m ρ c (Proc.devRef .tc (Pipeline.arrRef spec0 w)) = (datA (entry1 m ρ) c).arrAt w cfg0.N := by
  unfold pastLayer1; exact Pipeline.withArrays_arr spec0 launch0.win.arr_inj c _ _ w
theorem pastLayer1_of_ne (c : Dev nD) (b : Ref sig .tc) (hb : ∀ w, Pipeline.arrRef spec0 w ≠ b) :
    pastLayer1 m ρ c (Proc.devRef .tc b) = atLayer1 m ρ c (Proc.devRef .tc b) := by
  unfold pastLayer1; exact Pipeline.withArrays_of_ne spec0 c _ _ b hb
abbrev exit1 : (c : Dev nD) → (b : Ref sig .tc) → Buf (Elt F) ((c : Thread nD τ).loc b) := fun c b => pastLayer1 m ρ c b
theorem leaves1 (c : Dev nD) (w : Fin cfg0.W) : (datA (entry1 m ρ) c).arrAt w cfg0.N = exit1 m ρ c (Pipeline.arrRef spec0 w) :=
  (pastLayer1_arr m ρ c w).symm
theorem keeps1 (c : Dev nD) : ∀ b, b ∉ Finset.univ.image (Pipeline.arrRef spec0) → exit1 m ρ c b = entry1 m ρ c b :=
  fun b hb => pastLayer1_of_ne m ρ c b fun w e => hb (Finset.mem_image.mpr ⟨w, Finset.mem_univ _, e⟩)

/-- When the second layer's region is entered: after the second stretch of host operations. -/
abbrev atLayer2 : Dev nD → Valuation τ sig (Elt F) := fun c => StableHlo.after hostOps1 (pastLayer1 m ρ c)
abbrev entry2 : (c : Dev nD) → (b : Ref sig .tc) → Buf (Elt F) ((c : Thread nD τ).loc b) := fun c b => atLayer2 m ρ c b
/-- When the second region is left. -/
def pastLayer2 (c : Dev nD) : Valuation τ sig (Elt F) :=
  Pipeline.withArrays spec1 c (atLayer2 m ρ c) fun w => (datB (entry2 m ρ) c).arrAt w cfg1.N
theorem pastLayer2_arr (c : Dev nD) (w : Fin cfg1.W) :
    pastLayer2 m ρ c (Proc.devRef .tc (Pipeline.arrRef spec1 w)) = (datB (entry2 m ρ) c).arrAt w cfg1.N := by
  unfold pastLayer2; exact Pipeline.withArrays_arr spec1 launch1.win.arr_inj c _ _ w
theorem pastLayer2_of_ne (c : Dev nD) (b : Ref sig .tc) (hb : ∀ w, Pipeline.arrRef spec1 w ≠ b) :
    pastLayer2 m ρ c (Proc.devRef .tc b) = atLayer2 m ρ c (Proc.devRef .tc b) := by
  unfold pastLayer2; exact Pipeline.withArrays_of_ne spec1 c _ _ b hb
abbrev exit2 : (c : Dev nD) → (b : Ref sig .tc) → Buf (Elt F) ((c : Thread nD τ).loc b) := fun c b => pastLayer2 m ρ c b
theorem leaves2 (c : Dev nD) (w : Fin cfg1.W) : (datB (entry2 m ρ) c).arrAt w cfg1.N = exit2 m ρ c (Pipeline.arrRef spec1 w) :=
  (pastLayer2_arr m ρ c w).symm
theorem keeps2 (c : Dev nD) : ∀ b, b ∉ Finset.univ.image (Pipeline.arrRef spec1) → exit2 m ρ c b = entry2 m ρ c b :=
  fun b hb => pastLayer2_of_ne m ρ c b fun w e => hb (Finset.mem_image.mpr ⟨w, Finset.mem_univ _, e⟩)

/-! ## A buffer nothing writes ends as launched

    A region changes only its output window's array; a stretch of host operations only its operations' results.  So a
    buffer that is no result of a host operation and is, for each region, either none of its arrays or one of its INPUT
    arrays, holds at the end what it held at launch. -/

theorem untouched (c : Dev nD) (b : Ref sig .tc) (h0 : b ∉ hostOps0_W) (h1 : b ∉ hostOps1_W)
    (hA : (∀ w, Pipeline.arrRef spec0 w ≠ b) ∨ ∃ w, (cfg0.win w).isOut = false ∧ Pipeline.arrRef spec0 w = b)
    (hB : (∀ w, Pipeline.arrRef spec1 w ≠ b) ∨ ∃ w, (cfg1.win w).isOut = false ∧ Pipeline.arrRef spec1 w = b) :
    pastLayer2 m ρ c (Proc.devRef .tc b) = m ((c : Thread nD τ).loc b) := by
  have e4 : pastLayer2 m ρ c (Proc.devRef .tc b) = atLayer2 m ρ c (Proc.devRef .tc b) := by
    rcases hB with h | ⟨w, hw, rfl⟩
    · exact pastLayer2_of_ne m ρ c b h
    · exact (pastLayer2_arr m ρ c w).trans (((datB (entry2 m ρ) c).arrAt_in w hw _).trans (datB_A (entry2 m ρ) c w))
  have e3 : atLayer2 m ρ c (Proc.devRef .tc b) = pastLayer1 m ρ c (Proc.devRef .tc b) :=
    StableHlo.after_of_writes_sub hostOps1 _ hostOps1_writes h1
  have e2 : pastLayer1 m ρ c (Proc.devRef .tc b) = atLayer1 m ρ c (Proc.devRef .tc b) := by
    rcases hA with h | ⟨w, hw, rfl⟩
    · exact pastLayer1_of_ne m ρ c b h
    · exact (pastLayer1_arr m ρ c w).trans (((datA (entry1 m ρ) c).arrAt_in w hw _).trans (datA_A (entry1 m ρ) c w))
  have e1 : atLayer1 m ρ c (Proc.devRef .tc b) = atLaunch m ρ c (Proc.devRef .tc b) :=
    StableHlo.after_of_writes_sub hostOps0 _ hostOps0_writes h0
  exact e4.trans (e3.trans (e2.trans (e1.trans rfl)))

/-! ## The proof data family and the thread state -/

/-- No pipeline reads a prefetched table. -/
abbrev noTables : (p : Fin 2) → (pcfgs (F := F) p).Adm := fun p => (cfgs p).toPCfg_adm
/-- Each pipeline's proof data at its region's entry contents. -/
def layerData : (p : Fin 2) → (c : Dev nD) → Dat τ (Elt F) Unit ℕ (UR sig nD τ) ℕ (Pipeline.pin (pcfgs (F := F)) noTables p) c
  | ⟨0, _⟩ => fun c => datA (entry1 m ρ) c
  | ⟨1, _⟩ => fun c => datB (entry2 m ρ) c
abbrev plain : Variants := Variants.none
/-- No core owes another anything. -/
abbrev noDues : GSem nD τ sig → Finset Unit := fun _ => ∅
abbrev lvl : GSem nD τ sig → Unit → ℕ := fun _ _ => 0
/-- What rides beside the buffers through every item: the generator register at some state, and nothing owed. -/
abbrev rides (c : Dev nD) : sProp 𝕄 := iprop((∃ r, prngReg c r) ∗ ∃ W, owes (c : Thread nD τ) (0 : CellTallies nD τ sig Unit) W)
/-- A stretch of host operations as an item of the run, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ plain noDues lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev atEnd (c : Dev nD) : sProp 𝕄 := iprop(StableHlo.held (c : Thread nD τ) (Pipeline.ucRefs τ sig) (pastLayer2 m ρ c) ∗ ∃ r, prngReg c r)

/-! ## The two regions as items -/

set_option backward.isDefEq.respectTransparency.types false in
/-- The first layer's region: entered with every unscoped buffer at `atLayer1`, left at `pastLayer1`. -/
def region1 : Pipeline.RegionSeg (pcfgs (F := F)) noTables (layerData m ρ) () defs₀ plain noDues lvl 0 where
  win := launch0.win.to₀
  block_pos := launch0.block_pos
  stage_whole := launch0.stage_whole
  K := PEmpty
  osem k := k.elim
  ho := Pipeline.OwnSemFacts.none _
  hbody c := (obligationA (entry1 m ρ) c).loose
  hwaits := Pipeline.hwaits_of_owed_zero _ _ _ _ noDues lvl 0 fun _ _ => rfl
  pre c := iprop(StableHlo.held (c : Thread nD τ) (Pipeline.ucRefs τ sig) (atLayer1 m ρ c) ∗ rides c)
  post c := iprop(StableHlo.held (c : Thread nD τ) (Pipeline.ucRefs τ sig) (pastLayer1 m ρ c) ∗ rides c)
  X c := iprop(∃ r, prngReg c r)
  Y c := iprop(∃ r, prngReg c r)
  Z c := Pipeline.unscopedRest (Ix := Unit) (Name := ℕ) (U := UR sig nD τ) (Lvl := ℕ) spec0 c (entry1 m ρ c)
  hentry c := by
    rw [Pipeline.ownSems0_none]
    have hsplit := Pipeline.arrays_of_unscopedBufs (p := 0) (pcfgs (F := F)) noTables (layerData m ρ) launch0.win launch0.arr_whole c
      ((layerData m ρ 0 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layerData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (layerData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (layerData m ρ) ((layerData m ρ 0 c).share_full fun _ => rfl)
      (entry1 m ρ c) (exit1 m ρ c) ((layerData m ρ 0 c).arrAt · cfg0.N) (leaves1 m ρ c) (keeps1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered with every unscoped buffer at `atLayer2`, left at `pastLayer2`. -/
def region2 : Pipeline.RegionSeg (pcfgs (F := F)) noTables (layerData m ρ) () defs₀ plain noDues lvl 1 where
  win := launch1.win.to₀
  block_pos := launch1.block_pos
  stage_whole := launch1.stage_whole
  K := PEmpty
  osem k := k.elim
  ho := Pipeline.OwnSemFacts.none _
  hbody c := (obligationB (entry2 m ρ) c).loose
  hwaits := Pipeline.hwaits_of_owed_zero _ _ _ _ noDues lvl 1 fun _ _ => rfl
  pre c := iprop(StableHlo.held (c : Thread nD τ) (Pipeline.ucRefs τ sig) (atLayer2 m ρ c) ∗ rides c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry2 m ρ c)
  hentry c := by
    rw [Pipeline.ownSems0_none]
    have hsplit := Pipeline.arrays_of_unscopedBufs (p := 1) (pcfgs (F := F)) noTables (layerData m ρ) launch1.win launch1.arr_whole c
      ((layerData m ρ 1 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layerData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (layerData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (layerData m ρ) ((layerData m ρ 1 c).share_full fun _ => rfl)
      (entry2 m ρ c) (exit2 m ρ c) ((layerData m ρ 1 c).arrAt · cfg1.N) (leaves2 m ρ c) (keeps2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four items, and the run -/

abbrev items : List (Pipeline.Seg (pcfgs (F := F)) noTables (layerData m ρ) () defs₀ plain noDues lvl) :=
  [ .host (hostItem hostOps0 hostOps0_sub hostOps0_fresh (atLaunch m ρ)),
    .region (region1 m ρ),
    .host (hostItem hostOps1 hostOps1_sub hostOps1_fresh (pastLayer1 m ρ)),
    .region (region2 m ρ) ]

theorem main_is_items (c : Dev nD) : main (F := F) c = Pipeline.Seg.run (items m ρ) := (main_chain c).trans (by chain_rfl)

set_option backward.isDefEq.respectTransparency.types false in
/-- From any memory with zero counters every weakly fair execution of @main terminates, nothing faulting, and in the
    final memory every buffer outside the regions' scratch holds the last boundary's contents. -/
theorem runs_to_end : θ_run defs (onTc (τ := τ) (main (F := F))) ⟨m, fun _ => 0, ρ⟩ (fun r => ∀ c : Dev nD,
      ∀ b ∈ Pipeline.ucRefs τ sig, r.2.mem (((c : Thread nD τ)).1, b) = pastLayer2 m ρ c b) :=
  Pipeline.θ_run_regions_kit (pcfgs (F := F)) noTables (layerData m ρ) () cellOf_inj emb₁ defs₀ plain noDues lvl m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ rides c)) (Tₙ := atEnd m ρ)
    (hch := ⟨fun _ => .rfl, fun _ => .rfl, fun _ => .rfl, fun _ => .rfl, fun _ => .rfl⟩)
    (hinit := by
      refine Pipeline.initEach noDues lvl fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = pastLayer2 m ρ c b)
    (hfin := fun c s' => by
      iintro ⟨⟨Hh, -⟩, HSI⟩
      unfold StableHlo.held
      imodintro
      iapply (pointsTo_read_all (Pipeline.ucRefs τ sig) (fun b => (((c : Thread nD τ)).1, b)) (pastLayer2 m ρ c) s')
      isplitl [Hh] <;> iassumption)
    (hQ := fun s h => h)

/-! ## What the run leaves: the arguments, and the result -/

/-- In a final memory that holds every unscoped buffer at the last boundary's contents, every argument array holds its
    launch contents. -/
theorem arguments_of (c : Dev nD) (mem : (ℓ : Loc nD τ sig) → Buf (Elt F) ℓ)
    (h : ∀ b ∈ Pipeline.ucRefs τ sig, mem (((c : Thread nD τ)).1, b) = pastLayer2 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18) :=
    ⟨(h _ (mem_uc main_arg0 (by decide))).trans (untouched m ρ c main_arg0 (by decide) (by decide) (by decide) (by decide)),
     (h _ (mem_uc main_arg1 (by decide))).trans (untouched m ρ c main_arg1 (by decide) (by decide) (by decide) (by decide)),
     (h _ (mem_uc main_arg2 (by decide))).trans (untouched m ρ c main_arg2 (by decide) (by decide) (by decide) (by decide)),
     (h _ (mem_uc main_arg3 (by decide))).trans (untouched m ρ c main_arg3 (by decide) (by decide) (by decide) (by decide)),
     (h _ (mem_uc main_arg4 (by decide))).trans (untouched m ρ c main_arg4 (by decide) (by decide) (by decide) (by decide)),
     (h _ (mem_uc main_arg5 (by decide))).trans (untouched m ρ c main_arg5 (by decide) (by decide) (by decide) (by decide)),
     (h _ (mem_uc main_arg6 (by decide))).trans (untouched m ρ c main_arg6 (by decide) (by decide) (by decide) (by decide)),
     (h _ (mem_uc main_arg7 (by decide))).trans (untouched m ρ c main_arg7 (by decide) (by decide) (by decide) (by decide)),
     (h _ (mem_uc main_arg8 (by decide))).trans (untouched m ρ c main_arg8 (by decide) (by decide) (by decide) (by decide)),
     (h _ (mem_uc main_arg9 (by decide))).trans (untouched m ρ c main_arg9 (by decide) (by decide) (by decide) (by decide)),
     (h _ (mem_uc main_arg10 (by decide))).trans (untouched m ρ c main_arg10 (by decide) (by decide) (by decide) (by decide)),
     (h _ (mem_uc main_arg11 (by decide))).trans (untouched m ρ c main_arg11 (by decide) (by decide) (by decide) (by decide)),
     (h _ (mem_uc main_arg12 (by decide))).trans (untouched m ρ c main_arg12 (by decide) (by decide) (by decide) (by decide)),
     (h _ (mem_uc main_arg13 (by decide))).trans (untouched m ρ c main_arg13 (by decide) (by decide) (by decide) (by decide)),
     (h _ (mem_uc main_arg14 (by decide))).trans (untouched m ρ c main_arg14 (by decide) (by decide) (by decide) (by decide)),
     (h _ (mem_uc main_arg15 (by decide))).trans (untouched m ρ c main_arg15 (by decide) (by decide) (by decide) (by decide)),
     (h _ (mem_uc main_arg16 (by decide))).trans (untouched m ρ c main_arg16 (by decide) (by decide) (by decide) (by decide)),
     (h _ (mem_uc main_arg17 (by decide))).trans (untouched m ρ c main_arg17 (by decide) (by decide) (by decide) (by decide)),
     (h _ (mem_uc main_arg18 (by decide))).trans (untouched m ρ c main_arg18 (by decide) (by decide) (by decide) (by decide))⟩

/-- Every argument array ends holding its launch contents. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => arguments_of m ρ c r.2.mem (h c)) (runs_to_end m ρ)

end Cert.Kernel.Hand

end
-- ==== Proof.IdealBlocks.lean ====
/-
  One fused graph layer on a block of 10000 rows, as each of the program's two regions runs it.

  A region walks five grid points.  At point t it is handed rows 10000·t … 10000·t + 9999 of the node features x and of
  the aggregated messages agg, and (the same block at every point) the stacked weight matrix [Wa | Wb | Wc], the stacked
  bias row [ba | bb | bc], the convolution weight Wconv and its bias row; it stores, over the whole output block,
      max( (x·Wa + ba) + (agg·Wconv + bconv) + (x·Wb + bb) ∘ (x·Wc + bc), 0 ).
  This file states, for entry contents V of the buffers that are a parameter, what each window's staging buffer holds
  before and after the body at a point (the inputs their blocks, the output the body's one store of the payload of the
  six loaded blocks), runs the body once symbolically to prove it, and packages that as the pipeline's proof data and
  body obligation.  Nothing here depends on the float instance: it is read at words for one program and at extended
  reals for the other.
-/
import proofs.«155698_j38422777430259_2_alg».proof.Proof.Gen.KernelIdeal.Launch
import proofs.«155698_j38422777430259_2_alg».proof.Proof.Gen.KernelIdeal.Skeleton
import proofs.«155698_j38422777430259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when a region is entered: a parameter, fixed per region by the run
variable (V : (c : Dev nD) → (b : Ref sig .tc) → Buf (Elt F) ((c : Thread nD τ).loc b))

/-! ## The rectangles the body reads and writes: every one the whole staging buffer -/

abbrev rRows : Rect S10000x128 := Rect.unit (s := S10000x128) ![0, 0] S10000x128.size inb_S10000x128_S10000x128_0_0
abbrev rStacked : Rect S128x384 := Rect.unit (s := S128x384) ![0, 0] S128x384.size inb_S128x384_S128x384_0_0
abbrev rStackedBias : Rect S1x384 := Rect.unit (s := S1x384) ![0, 0] S1x384.size inb_S1x384_S1x384_0_0
abbrev rSquare : Rect S128x128 := Rect.unit (s := S128x128) ![0, 0] S128x128.size inb_S128x128_S128x128_0_0
abbrev rBias : Rect S1x128 := Rect.unit (s := S1x128) ![0, 0] S1x128.size inb_S1x128_S1x128_0_0

/-- One store over the whole 10000×128 buffer covers every entry of it. -/
theorem store_covers (p0 : Vec F S10000x128 .f32) (y : S10000x128.Idx) :
    ∃ pc ∈ ([⟨rRows, p0⟩] : List (View.Piece (Elt F) S10000x128 .f32)), y ∈ pc.1.set :=
  View.cover_of_tiled [⟨rRows, p0⟩] S10000x128.size (by rfl) y

/-! # The first layer's region (pipeline 0) -/

/-- Block t of window w of the first region, cut from the window's array as the region finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds the window's block at every point, whether the pipeline fetched
    there or kept the previous point's block (its block index had then not moved). -/

theorem beforeA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem beforeA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem beforeA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)
theorem beforeA_3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)
theorem beforeA_4_of {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)
theorem beforeA_5_of {c : Dev nD} (dat : Dat τ (Elt F) Unit ℕ (UR sig nD τ) ℕ cfg0 c) (hA : dat.A 5 = V c (Pipeline.arrRef spec0 5))
    (hafter : ∀ t, dat.after 5 t = blkA V c 5 t) (t : Fin cfg0.N) (d) : dat.before 5 t d = blkA V c 5 t :=
  (dat.before_in_eq_fetched 5 rfl (fun _ => rfl) (fun _ _ _ => rfl) (fun t => by rw [hafter]; unfold Dat.blockOf blkA; rw [hA]; try rfl) t d).trans
    (by unfold Dat.fetched Dat.blockOf blkA; rw [hA]; try rfl)

/-- The output window's staging buffer after the body: the one store, over the whole buffer, of the layer's payload of
    the six input blocks (x, agg, the stacked weights, the stacked bias row, the convolution weight, its bias row). -/
def outA (x : Vec F S10000x128 .f32) (agg : Vec F S10000x128 .f32) (wabc : Vec F S128x384 .f32) (babc : Vec F S1x384 .f32)
    (wconv : Vec F S128x128 .f32) (bconv : Vec F S1x128 .f32) : Vec F S10000x128 .f32 :=
  View.canon [⟨rRows, k0_pay1 (View.ld x rRows) (View.ld agg rRows) (View.ld wabc rStacked) (View.ld wconv rSquare) (View.ld babc rStackedBias) (View.ld bconv rBias)⟩]

set_option maxHeartbeats 1000000 in
/-- The body on whole staging memrefs — the inputs' at known contents, the output's at anything — runs to its
    continuation with the inputs untouched and the output's at `outA` of the inputs. -/
theorem bodyA_runs (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x384 .f32) (harg3 : arg3.IsWhole) (arg4 : Memref sig .tc .vmem S1x384 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S10000x128 .f32) (harg7 : arg7.IsWhole)
    (x0 : Vec F S10000x128 .f32) (x1 : Vec F S10000x128 .f32) (x2 : Vec F S128x384 .f32) (x3 : Vec F S1x384 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outA x0 x1 x2 x3 x4 x5)) -∗ K ⟨⟩))
      ⊢ wp frame (wpE (defs₀ (F := F)) Variants.none c none) E
          (cc0__fused_layer_kernel i arg1 harg1 arg2 harg2 arg3 harg3 arg4 harg4 arg5 harg5 arg6 harg6 arg7 harg7) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-- The first region's proof data on core c: the arrays as the region finds them; after the body at point t each
    input's buffer at its block and the output's at the layer's store of the six blocks; the scoped rest and the
    generator register untouched; nothing owed; full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => blkA V c 5 t
    | ⟨6, _⟩ => outA (blkA V c 0 t) (blkA V c 1 t) (blkA V c 2 t) (blkA V c 3 t) (blkA V c 4 t) (blkA V c 5 t)
  Φ _ := Pipeline.ΦA spec0 c
  q _ := fullShare
  owed _ := 0

theorem datA_A (c : Dev nD) (w : Fin cfg0.W) : (datA V c).A w = V c (Pipeline.arrRef spec0 w) := by
  dsimp only [datA]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) : (datA V c).after 4 t = blkA V c 4 t := by dsimp only [datA]
theorem afterA_5 (c : Dev nD) (t : Fin cfg0.N) : (datA V c).after 5 t = blkA V c 5 t := by dsimp only [datA]
theorem afterA_6 (c : Dev nD) (t : Fin cfg0.N) : (datA V c).after 6 t
    = outA (blkA V c 0 t) (blkA V c 1 t) (blkA V c 2 t) (blkA V c 3 t) (blkA V c 4 t) (blkA V c 5 t) := by dsimp only [datA]

theorem beforeA_0 (c : Dev nD) (t : Fin cfg0.N) (d) : (datA V c).before 0 t d = blkA V c 0 t :=
  beforeA_0_of V (datA V c) (datA_A V c 0) (afterA_0 V c) t d
theorem beforeA_1 (c : Dev nD) (t : Fin cfg0.N) (d) : (datA V c).before 1 t d = blkA V c 1 t :=
  beforeA_1_of V (datA V c) (datA_A V c 1) (afterA_1 V c) t d
theorem beforeA_2 (c : Dev nD) (t : Fin cfg0.N) (d) : (datA V c).before 2 t d = blkA V c 2 t :=
  beforeA_2_of V (datA V c) (datA_A V c 2) (afterA_2 V c) t d
theorem beforeA_3 (c : Dev nD) (t : Fin cfg0.N) (d) : (datA V c).before 3 t d = blkA V c 3 t :=
  beforeA_3_of V (datA V c) (datA_A V c 3) (afterA_3 V c) t d
theorem beforeA_4 (c : Dev nD) (t : Fin cfg0.N) (d) : (datA V c).before 4 t d = blkA V c 4 t :=
  beforeA_4_of V (datA V c) (datA_A V c 4) (afterA_4 V c) t d
theorem beforeA_5 (c : Dev nD) (t : Fin cfg0.N) (d) : (datA V c).before 5 t d = blkA V c 5 t :=
  beforeA_5_of V (datA V c) (datA_A V c 5) (afterA_5 V c) t d

/-- What the body is called with at point t, the windows one by one, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d))
    ∗ (∃ d, owns (c : Thread nD τ) (st0_6 t) fullShare ((datA V c).before 6 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t)
    ∗ owns (c : Thread nD τ) (st0_6 t) fullShare ((datA V c).after 6 t))

/-- The body at any point: the inputs' memrefs hold their blocks, so `bodyA_runs` applies; the invariant and what the core
    owes pass through unread. -/
theorem bodyA_at (c : Dev nD) (t : Fin cfg0.N) :
    preA V c t ⊢ wp frame (wpE (defs₀ (F := F)) Variants.none c none) Set.univ (bodyAt0 t) (fun _ => postA V c t) := by
  unfold preA postA bodyAt0
  simp only [beforeA_0, beforeA_1, beforeA_2, beforeA_3, beforeA_4, beforeA_5]
  rw [show (datA V c).Φ t.succ = (datA V c).Φ t.castSucc from rfl,
    show (datA V c).owesAt () t.succ = (datA V c).owesAt () t.castSucc from rfl,
    afterA_0, afterA_1, afterA_2, afterA_3, afterA_4, afterA_5, afterA_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyA_runs c Set.univ _ _ _ _ _ _ _ _ _ _ _ _ _ _ _ (blkA V c 0 t) (blkA V c 1 t) (blkA V c 2 t) (blkA V c 3 t) (blkA V c 4 t) (blkA V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for the first region, at every point. -/
theorem obligationA (c : Dev nD) : BodyObligation (datA (F := F) V c) (defs₀ (F := F)) Variants.none () Set.univ := fun t => by
  rw [bigSep_W0, bigSep_W0]
  exact bodyA_at V c t

/-! # The second layer's region (pipeline 1) -/

/-- Block t of window w of the second region, cut from the window's array as the region finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem beforeB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem beforeB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)
theorem beforeB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)
theorem beforeB_3_of {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)
theorem beforeB_4_of {c : Dev nD} (dat : Dat τ (Elt F) Unit ℕ (UR sig nD τ) ℕ cfg1 c) (hA : dat.A 4 = V c (Pipeline.arrRef spec1 4))
    (hafter : ∀ t, dat.after 4 t = blkB V c 4 t) (t : Fin cfg1.N) (d) : dat.before 4 t d = blkB V c 4 t :=
  (dat.before_in_eq_fetched 4 rfl (fun _ => rfl) (fun _ _ _ => rfl) (fun t => by rw [hafter]; unfold Dat.blockOf blkB; rw [hA]; try rfl) t d).trans
    (by unfold Dat.fetched Dat.blockOf blkB; rw [hA]; try rfl)
theorem beforeB_5_of {c : Dev nD} (dat : Dat τ (Elt F) Unit ℕ (UR sig nD τ) ℕ cfg1 c) (hA : dat.A 5 = V c (Pipeline.arrRef spec1 5))
    (hafter : ∀ t, dat.after 5 t = blkB V c 5 t) (t : Fin cfg1.N) (d) : dat.before 5 t d = blkB V c 5 t :=
  (dat.before_in_eq_fetched 5 rfl (fun _ => rfl) (fun _ _ _ => rfl) (fun t => by rw [hafter]; unfold Dat.blockOf blkB; rw [hA]; try rfl) t d).trans
    (by unfold Dat.fetched Dat.blockOf blkB; rw [hA]; try rfl)

/-- The second region's output buffer after the body: the one store of the layer's payload of the six input blocks
    (the first layer's result h, its aggregated messages, and the second layer's stacked weights and biases). -/
def outB (x : Vec F S10000x128 .f32) (agg : Vec F S10000x128 .f32) (wabc : Vec F S128x384 .f32) (babc : Vec F S1x384 .f32)
    (wconv : Vec F S128x128 .f32) (bconv : Vec F S1x128 .f32) : Vec F S10000x128 .f32 :=
  View.canon [⟨rRows, k1_pay1 (View.ld x rRows) (View.ld agg rRows) (View.ld wabc rStacked) (View.ld wconv rSquare) (View.ld babc rStackedBias) (View.ld bconv rBias)⟩]

set_option maxHeartbeats 1000000 in
/-- The second region's body on whole staging memrefs runs to its continuation with the inputs untouched and the
    output's at `outB` of the inputs. -/
theorem bodyB_runs (c : Dev nD) (E : Set ℕ) (i : grid1.Coords)
    (arg1 : Memref sig .tc .vmem S10000x128 .f32) (harg1 : arg1.IsWhole) (arg2 : Memref sig .tc .vmem S10000x128 .f32) (harg2 : arg2.IsWhole)
    (arg3 : Memref sig .tc .vmem S128x384 .f32) (harg3 : arg3.IsWhole) (arg4 : Memref sig .tc .vmem S1x384 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S10000x128 .f32) (harg7 : arg7.IsWhole)
    (x0 : Vec F S10000x128 .f32) (x1 : Vec F S10000x128 .f32) (x2 : Vec F S128x384 .f32) (x3 : Vec F S1x384 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outB x0 x1 x2 x3 x4 x5)) -∗ K ⟨⟩))
      ⊢ wp frame (wpE (defs₀ (F := F)) Variants.none c none) E
          (cc1__fused_layer_kernel i arg1 harg1 arg2 harg2 arg3 harg3 arg4 harg4 arg5 harg5 arg6 harg6 arg7 harg7) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-- The second region's proof data on core c, in the same shape as the first's. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => blkB V c 5 t
    | ⟨6, _⟩ => outB (blkB V c 0 t) (blkB V c 1 t) (blkB V c 2 t) (blkB V c 3 t) (blkB V c 4 t) (blkB V c 5 t)
  Φ _ := Pipeline.ΦA spec1 c
  q _ := fullShare
  owed _ := 0

theorem datB_A (c : Dev nD) (w : Fin cfg1.W) : (datB V c).A w = V c (Pipeline.arrRef spec1 w) := by
  dsimp only [datB]

theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) : (datB V c).after 4 t = blkB V c 4 t := by dsimp only [datB]
theorem afterB_5 (c : Dev nD) (t : Fin cfg1.N) : (datB V c).after 5 t = blkB V c 5 t := by dsimp only [datB]
theorem afterB_6 (c : Dev nD) (t : Fin cfg1.N) : (datB V c).after 6 t
    = outB (blkB V c 0 t) (blkB V c 1 t) (blkB V c 2 t) (blkB V c 3 t) (blkB V c 4 t) (blkB V c 5 t) := by dsimp only [datB]

theorem beforeB_0 (c : Dev nD) (t : Fin cfg1.N) (d) : (datB V c).before 0 t d = blkB V c 0 t :=
  beforeB_0_of V (datB V c) (datB_A V c 0) (afterB_0 V c) t d
theorem beforeB_1 (c : Dev nD) (t : Fin cfg1.N) (d) : (datB V c).before 1 t d = blkB V c 1 t :=
  beforeB_1_of V (datB V c) (datB_A V c 1) (afterB_1 V c) t d
theorem beforeB_2 (c : Dev nD) (t : Fin cfg1.N) (d) : (datB V c).before 2 t d = blkB V c 2 t :=
  beforeB_2_of V (datB V c) (datB_A V c 2) (afterB_2 V c) t d
theorem beforeB_3 (c : Dev nD) (t : Fin cfg1.N) (d) : (datB V c).before 3 t d = blkB V c 3 t :=
  beforeB_3_of V (datB V c) (datB_A V c 3) (afterB_3 V c) t d
theorem beforeB_4 (c : Dev nD) (t : Fin cfg1.N) (d) : (datB V c).before 4 t d = blkB V c 4 t :=
  beforeB_4_of V (datB V c) (datB_A V c 4) (afterB_4 V c) t d
theorem beforeB_5 (c : Dev nD) (t : Fin cfg1.N) (d) : (datB V c).before 5 t d = blkB V c 5 t :=
  beforeB_5_of V (datB V c) (datB_A V c 5) (afterB_5 V c) t d

/-- What the second region's body is called with at point t, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d))
    ∗ (∃ d, owns (c : Thread nD τ) (st1_5 t) fullShare ((datB V c).before 5 t d))
    ∗ (∃ d, owns (c : Thread nD τ) (st1_6 t) fullShare ((datB V c).before 6 t d)))

/-- and what it returns. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t)
    ∗ owns (c : Thread nD τ) (st1_5 t) fullShare ((datB V c).after 5 t)
    ∗ owns (c : Thread nD τ) (st1_6 t) fullShare ((datB V c).after 6 t))

theorem bodyB_at (c : Dev nD) (t : Fin cfg1.N) :
    preB V c t ⊢ wp frame (wpE (defs₀ (F := F)) Variants.none c none) Set.univ (bodyAt1 t) (fun _ => postB V c t) := by
  unfold preB postB bodyAt1
  simp only [beforeB_0, beforeB_1, beforeB_2, beforeB_3, beforeB_4, beforeB_5]
  rw [show (datB V c).Φ t.succ = (datB V c).Φ t.castSucc from rfl,
    show (datB V c).owesAt () t.succ = (datB V c).owesAt () t.castSucc from rfl,
    afterB_0, afterB_1, afterB_2, afterB_3, afterB_4, afterB_5, afterB_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyB_runs c Set.univ _ _ _ _ _ _ _ _ _ _ _ _ _ _ _ (blkB V c 0 t) (blkB V c 1 t) (blkB V c 2 t) (blkB V c 3 t) (blkB V c 4 t) (blkB V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for the second region, at every point. -/
theorem obligationB (c : Dev nD) : BodyObligation (datB (F := F) V c) (defs₀ (F := F)) Variants.none () Set.univ := fun t => by
  rw [bigSep_W1, bigSep_W1]
  exact bodyB_at V c t

end Cert.KernelIdeal.Hand

end
-- ==== Proof.IdealRun.lean ====
/-
  The program's run from launch to return.

  @main is four items in a row: the host operations that build the first layer's operands (the two index rows of the edge
  list, the three stacked weight matrices and bias rows, and the first aggregation — gather the source rows of x, scale
  each by its edge weight, sum into the destination rows), the first layer's region, the host operations that repeat the
  aggregation on the first layer's result, and the second layer's region.  This file names the buffers' contents at each
  of the five boundaries as a fold from the launch memory — a stretch of host operations applies them in order; a region
  leaves its input arrays as it found them and its output array at what its five write-backs leave — and runs the program
  through them.  The run ends with every buffer outside a region's scratch at the last boundary's contents: the arguments
  at their launch contents (no host operation and no region writes one), the result at what the second region leaves.
-/
import proofs.«155698_j38422777430259_2_alg».proof.Proof.IdealBlocks
import proofs.«155698_j38422777430259_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- Core c's buffers at launch. -/
abbrev atLaunch : Dev nD → Valuation τ sig (Elt F) := fun c b => (s₀ m ρ).mem ((c : Dev nD), b)
/-- When the first layer's region is entered: after the first stretch of host operations. -/
abbrev atLayer1 : Dev nD → Valuation τ sig (Elt F) := fun c => StableHlo.after hostOps0 (atLaunch m ρ c)
/-- The same, read at the TensorCore's references. -/
abbrev entry1 : (c : Dev nD) → (b : Ref sig .tc) → Buf (Elt F) ((c : Thread nD τ).loc b) := fun c b => atLayer1 m ρ c b
/-- When the first region is left: its arrays at what the pipeline leaves, every other buffer as entered. -/
def pastLayer1 (c : Dev nD) : Valuation τ sig (Elt F) :=
  Pipeline.withArrays spec0 c (atLayer1 m ρ c) fun w => (datA (entry1 m ρ) c).arrAt w cfg0.N
theorem pastLayer1_arr (c : Dev nD) (w : Fin cfg0.W) :
    pastLayer1 m ρ c (Proc.devRef .tc (Pipeline.arrRef spec0 w)) = (datA (entry1 m ρ) c).arrAt w cfg0.N := by
  unfold pastLayer1; exact Pipeline.withArrays_arr spec0 launch0.win.arr_inj c _ _ w
theorem pastLayer1_of_ne (c : Dev nD) (b : Ref sig .tc) (hb : ∀ w, Pipeline.arrRef spec0 w ≠ b) :
    pastLayer1 m ρ c (Proc.devRef .tc b) = atLayer1 m ρ c (Proc.devRef .tc b) := by
  unfold pastLayer1; exact Pipeline.withArrays_of_ne spec0 c _ _ b hb
abbrev exit1 : (c : Dev nD) → (b : Ref sig .tc) → Buf (Elt F) ((c : Thread nD τ).loc b) := fun c b => pastLayer1 m ρ c b
theorem leaves1 (c : Dev nD) (w : Fin cfg0.W) : (datA (entry1 m ρ) c).arrAt w cfg0.N = exit1 m ρ c (Pipeline.arrRef spec0 w) :=
  (pastLayer1_arr m ρ c w).symm
theorem keeps1 (c : Dev nD) : ∀ b, b ∉ Finset.univ.image (Pipeline.arrRef spec0) → exit1 m ρ c b = entry1 m ρ c b :=
  fun b hb => pastLayer1_of_ne m ρ c b fun w e => hb (Finset.mem_image.mpr ⟨w, Finset.mem_univ _, e⟩)

/-- When the second layer's region is entered: after the second stretch of host operations. -/
abbrev atLayer2 : Dev nD → Valuation τ sig (Elt F) := fun c => StableHlo.after hostOps1 (pastLayer1 m ρ c)
abbrev entry2 : (c : Dev nD) → (b : Ref sig .tc) → Buf (Elt F) ((c : Thread nD τ).loc b) := fun c b => atLayer2 m ρ c b
/-- When the second region is left. -/
def pastLayer2 (c : Dev nD) : Valuation τ sig (Elt F) :=
  Pipeline.withArrays spec1 c (atLayer2 m ρ c) fun w => (datB (entry2 m ρ) c).arrAt w cfg1.N
theorem pastLayer2_arr (c : Dev nD) (w : Fin cfg1.W) :
    pastLayer2 m ρ c (Proc.devRef .tc (Pipeline.arrRef spec1 w)) = (datB (entry2 m ρ) c).arrAt w cfg1.N := by
  unfold pastLayer2; exact Pipeline.withArrays_arr spec1 launch1.win.arr_inj c _ _ w
theorem pastLayer2_of_ne (c : Dev nD) (b : Ref sig .tc) (hb : ∀ w, Pipeline.arrRef spec1 w ≠ b) :
    pastLayer2 m ρ c (Proc.devRef .tc b) = atLayer2 m ρ c (Proc.devRef .tc b) := by
  unfold pastLayer2; exact Pipeline.withArrays_of_ne spec1 c _ _ b hb
abbrev exit2 : (c : Dev nD) → (b : Ref sig .tc) → Buf (Elt F) ((c : Thread nD τ).loc b) := fun c b => pastLayer2 m ρ c b
theorem leaves2 (c : Dev nD) (w : Fin cfg1.W) : (datB (entry2 m ρ) c).arrAt w cfg1.N = exit2 m ρ c (Pipeline.arrRef spec1 w) :=
  (pastLayer2_arr m ρ c w).symm
theorem keeps2 (c : Dev nD) : ∀ b, b ∉ Finset.univ.image (Pipeline.arrRef spec1) → exit2 m ρ c b = entry2 m ρ c b :=
  fun b hb => pastLayer2_of_ne m ρ c b fun w e => hb (Finset.mem_image.mpr ⟨w, Finset.mem_univ _, e⟩)

/-! ## A buffer nothing writes ends as launched

    A region changes only its output window's array; a stretch of host operations only its operations' results.  So a
    buffer that is no result of a host operation and is, for each region, either none of its arrays or one of its INPUT
    arrays, holds at the end what it held at launch. -/

theorem untouched (c : Dev nD) (b : Ref sig .tc) (h0 : b ∉ hostOps0_W) (h1 : b ∉ hostOps1_W)
    (hA : (∀ w, Pipeline.arrRef spec0 w ≠ b) ∨ ∃ w, (cfg0.win w).isOut = false ∧ Pipeline.arrRef spec0 w = b)
    (hB : (∀ w, Pipeline.arrRef spec1 w ≠ b) ∨ ∃ w, (cfg1.win w).isOut = false ∧ Pipeline.arrRef spec1 w = b) :
    pastLayer2 m ρ c (Proc.devRef .tc b) = m ((c : Thread nD τ).loc b) := by
  have e4 : pastLayer2 m ρ c (Proc.devRef .tc b) = atLayer2 m ρ c (Proc.devRef .tc b) := by
    rcases hB with h | ⟨w, hw, rfl⟩
    · exact pastLayer2_of_ne m ρ c b h
    · exact (pastLayer2_arr m ρ c w).trans (((datB (entry2 m ρ) c).arrAt_in w hw _).trans (datB_A (entry2 m ρ) c w))
  have e3 : atLayer2 m ρ c (Proc.devRef .tc b) = pastLayer1 m ρ c (Proc.devRef .tc b) :=
    StableHlo.after_of_writes_sub hostOps1 _ hostOps1_writes h1
  have e2 : pastLayer1 m ρ c (Proc.devRef .tc b) = atLayer1 m ρ c (Proc.devRef .tc b) := by
    rcases hA with h | ⟨w, hw, rfl⟩
    · exact pastLayer1_of_ne m ρ c b h
    · exact (pastLayer1_arr m ρ c w).trans (((datA (entry1 m ρ) c).arrAt_in w hw _).trans (datA_A (entry1 m ρ) c w))
  have e1 : atLayer1 m ρ c (Proc.devRef .tc b) = atLaunch m ρ c (Proc.devRef .tc b) :=
    StableHlo.after_of_writes_sub hostOps0 _ hostOps0_writes h0
  exact e4.trans (e3.trans (e2.trans (e1.trans rfl)))

/-! ## The proof data family and the thread state -/

/-- No pipeline reads a prefetched table. -/
abbrev noTables : (p : Fin 2) → (pcfgs (F := F) p).Adm := fun p => (cfgs p).toPCfg_adm
/-- Each pipeline's proof data at its region's entry contents. -/
def layerData : (p : Fin 2) → (c : Dev nD) → Dat τ (Elt F) Unit ℕ (UR sig nD τ) ℕ (Pipeline.pin (pcfgs (F := F)) noTables p) c
  | ⟨0, _⟩ => fun c => datA (entry1 m ρ) c
  | ⟨1, _⟩ => fun c => datB (entry2 m ρ) c
abbrev plain : Variants := Variants.none
/-- No core owes another anything. -/
abbrev noDues : GSem nD τ sig → Finset Unit := fun _ => ∅
abbrev lvl : GSem nD τ sig → Unit → ℕ := fun _ _ => 0
/-- What rides beside the buffers through every item: the generator register at some state, and nothing owed. -/
abbrev rides (c : Dev nD) : sProp 𝕄 := iprop((∃ r, prngReg c r) ∗ ∃ W, owes (c : Thread nD τ) (0 : CellTallies nD τ sig Unit) W)
/-- A stretch of host operations as an item of the run, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ plain noDues lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev atEnd (c : Dev nD) : sProp 𝕄 := iprop(StableHlo.held (c : Thread nD τ) (Pipeline.ucRefs τ sig) (pastLayer2 m ρ c) ∗ ∃ r, prngReg c r)

/-! ## The two regions as items -/

set_option backward.isDefEq.respectTransparency.types false in
/-- The first layer's region: entered with every unscoped buffer at `atLayer1`, left at `pastLayer1`. -/
def region1 : Pipeline.RegionSeg (pcfgs (F := F)) noTables (layerData m ρ) () defs₀ plain noDues lvl 0 where
  win := launch0.win.to₀
  block_pos := launch0.block_pos
  stage_whole := launch0.stage_whole
  K := PEmpty
  osem k := k.elim
  ho := Pipeline.OwnSemFacts.none _
  hbody c := (obligationA (entry1 m ρ) c).loose
  hwaits := Pipeline.hwaits_of_owed_zero _ _ _ _ noDues lvl 0 fun _ _ => rfl
  pre c := iprop(StableHlo.held (c : Thread nD τ) (Pipeline.ucRefs τ sig) (atLayer1 m ρ c) ∗ rides c)
  post c := iprop(StableHlo.held (c : Thread nD τ) (Pipeline.ucRefs τ sig) (pastLayer1 m ρ c) ∗ rides c)
  X c := iprop(∃ r, prngReg c r)
  Y c := iprop(∃ r, prngReg c r)
  Z c := Pipeline.unscopedRest (Ix := Unit) (Name := ℕ) (U := UR sig nD τ) (Lvl := ℕ) spec0 c (entry1 m ρ c)
  hentry c := by
    rw [Pipeline.ownSems0_none]
    have hsplit := Pipeline.arrays_of_unscopedBufs (p := 0) (pcfgs (F := F)) noTables (layerData m ρ) launch0.win launch0.arr_whole c
      ((layerData m ρ 0 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layerData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (layerData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (layerData m ρ) ((layerData m ρ 0 c).share_full fun _ => rfl)
      (entry1 m ρ c) (exit1 m ρ c) ((layerData m ρ 0 c).arrAt · cfg0.N) (leaves1 m ρ c) (keeps1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered with every unscoped buffer at `atLayer2`, left at `pastLayer2`. -/
def region2 : Pipeline.RegionSeg (pcfgs (F := F)) noTables (layerData m ρ) () defs₀ plain noDues lvl 1 where
  win := launch1.win.to₀
  block_pos := launch1.block_pos
  stage_whole := launch1.stage_whole
  K := PEmpty
  osem k := k.elim
  ho := Pipeline.OwnSemFacts.none _
  hbody c := (obligationB (entry2 m ρ) c).loose
  hwaits := Pipeline.hwaits_of_owed_zero _ _ _ _ noDues lvl 1 fun _ _ => rfl
  pre c := iprop(StableHlo.held (c : Thread nD τ) (Pipeline.ucRefs τ sig) (atLayer2 m ρ c) ∗ rides c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry2 m ρ c)
  hentry c := by
    rw [Pipeline.ownSems0_none]
    have hsplit := Pipeline.arrays_of_unscopedBufs (p := 1) (pcfgs (F := F)) noTables (layerData m ρ) launch1.win launch1.arr_whole c
      ((layerData m ρ 1 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layerData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (layerData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (layerData m ρ) ((layerData m ρ 1 c).share_full fun _ => rfl)
      (entry2 m ρ c) (exit2 m ρ c) ((layerData m ρ 1 c).arrAt · cfg1.N) (leaves2 m ρ c) (keeps2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four items, and the run -/

abbrev items : List (Pipeline.Seg (pcfgs (F := F)) noTables (layerData m ρ) () defs₀ plain noDues lvl) :=
  [ .host (hostItem hostOps0 hostOps0_sub hostOps0_fresh (atLaunch m ρ)),
    .region (region1 m ρ),
    .host (hostItem hostOps1 hostOps1_sub hostOps1_fresh (pastLayer1 m ρ)),
    .region (region2 m ρ) ]

theorem main_is_items (c : Dev nD) : main (F := F) c = Pipeline.Seg.run (items m ρ) := (main_chain c).trans (by chain_rfl)

set_option backward.isDefEq.respectTransparency.types false in
/-- From any memory with zero counters every weakly fair execution of @main terminates, nothing faulting, and in the
    final memory every buffer outside the regions' scratch holds the last boundary's contents. -/
theorem runs_to_end : θ_run defs (onTc (τ := τ) (main (F := F))) ⟨m, fun _ => 0, ρ⟩ (fun r => ∀ c : Dev nD,
      ∀ b ∈ Pipeline.ucRefs τ sig, r.2.mem (((c : Thread nD τ)).1, b) = pastLayer2 m ρ c b) :=
  Pipeline.θ_run_regions_kit (pcfgs (F := F)) noTables (layerData m ρ) () cellOf_inj emb₁ defs₀ plain noDues lvl m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ rides c)) (Tₙ := atEnd m ρ)
    (hch := ⟨fun _ => .rfl, fun _ => .rfl, fun _ => .rfl, fun _ => .rfl, fun _ => .rfl⟩)
    (hinit := by
      refine Pipeline.initEach noDues lvl fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = pastLayer2 m ρ c b)
    (hfin := fun c s' => by
      iintro ⟨⟨Hh, -⟩, HSI⟩
      unfold StableHlo.held
      imodintro
      iapply (pointsTo_read_all (Pipeline.ucRefs τ sig) (fun b => (((c : Thread nD τ)).1, b)) (pastLayer2 m ρ c) s')
      isplitl [Hh] <;> iassumption)
    (hQ := fun s h => h)

/-! ## What the run leaves: the arguments, and the result -/

/-- In a final memory that holds every unscoped buffer at the last boundary's contents, every argument array holds its
    launch contents. -/
theorem arguments_of (c : Dev nD) (mem : (ℓ : Loc nD τ sig) → Buf (Elt F) ℓ)
    (h : ∀ b ∈ Pipeline.ucRefs τ sig, mem (((c : Thread nD τ)).1, b) = pastLayer2 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18) :=
    ⟨(h _ (mem_uc main_arg0 (by decide))).trans (untouched m ρ c main_arg0 (by decide) (by decide) (by decide) (by decide)),
     (h _ (mem_uc main_arg1 (by decide))).trans (untouched m ρ c main_arg1 (by decide) (by decide) (by decide) (by decide)),
     (h _ (mem_uc main_arg2 (by decide))).trans (untouched m ρ c main_arg2 (by decide) (by decide) (by decide) (by decide)),
     (h _ (mem_uc main_arg3 (by decide))).trans (untouched m ρ c main_arg3 (by decide) (by decide) (by decide) (by decide)),
     (h _ (mem_uc main_arg4 (by decide))).trans (untouched m ρ c main_arg4 (by decide) (by decide) (by decide) (by decide)),
     (h _ (mem_uc main_arg5 (by decide))).trans (untouched m ρ c main_arg5 (by decide) (by decide) (by decide) (by decide)),
     (h _ (mem_uc main_arg6 (by decide))).trans (untouched m ρ c main_arg6 (by decide) (by decide) (by decide) (by decide)),
     (h _ (mem_uc main_arg7 (by decide))).trans (untouched m ρ c main_arg7 (by decide) (by decide) (by decide) (by decide)),
     (h _ (mem_uc main_arg8 (by decide))).trans (untouched m ρ c main_arg8 (by decide) (by decide) (by decide) (by decide)),
     (h _ (mem_uc main_arg9 (by decide))).trans (untouched m ρ c main_arg9 (by decide) (by decide) (by decide) (by decide)),
     (h _ (mem_uc main_arg10 (by decide))).trans (untouched m ρ c main_arg10 (by decide) (by decide) (by decide) (by decide)),
     (h _ (mem_uc main_arg11 (by decide))).trans (untouched m ρ c main_arg11 (by decide) (by decide) (by decide) (by decide)),
     (h _ (mem_uc main_arg12 (by decide))).trans (untouched m ρ c main_arg12 (by decide) (by decide) (by decide) (by decide)),
     (h _ (mem_uc main_arg13 (by decide))).trans (untouched m ρ c main_arg13 (by decide) (by decide) (by decide) (by decide)),
     (h _ (mem_uc main_arg14 (by decide))).trans (untouched m ρ c main_arg14 (by decide) (by decide) (by decide) (by decide)),
     (h _ (mem_uc main_arg15 (by decide))).trans (untouched m ρ c main_arg15 (by decide) (by decide) (by decide) (by decide)),
     (h _ (mem_uc main_arg16 (by decide))).trans (untouched m ρ c main_arg16 (by decide) (by decide) (by decide) (by decide)),
     (h _ (mem_uc main_arg17 (by decide))).trans (untouched m ρ c main_arg17 (by decide) (by decide) (by decide) (by decide)),
     (h _ (mem_uc main_arg18 (by decide))).trans (untouched m ρ c main_arg18 (by decide) (by decide) (by decide) (by decide))⟩

/-- Every argument array ends holding its launch contents. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => arguments_of m ρ c r.2.mem (h c)) (runs_to_end m ρ)

end Cert.KernelIdeal.Hand

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«155698_j38422777430259_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.IdealEntry.lean ====
/-
  The layer's payload on a block, read at an entry.

  The body multiplies the block of x by the stacked matrix [Wa | Wb | Wc] (128×384) into a zero accumulator, adds the
  stacked bias row down the rows, and cuts the 10000×384 result into its three 128-column bands; it multiplies the block
  of agg by Wconv and adds that bias row; then it adds band 0 to the convolution term, adds the product of bands 1 and 2,
  and takes the maximum with the zero word.  At entry (p, q) every one of these is a finite sum or a pointwise
  operation, so the payload is
      max( ((∑k x(p,k)·W(k,q) + b(0,q)) + (∑k agg(p,k)·Wconv(k,q) + bconv(0,q)))
           + (∑k x(p,k)·W(k,128+q) + b(0,128+q)) · (∑k x(p,k)·W(k,256+q) + b(0,256+q)) , zero word ).
-/
import proofs.«155698_j38422777430259_2_alg».proof.Proof.Gen.KernelIdeal.Skeleton
import proofs.«155698_j38422777430259_2_alg».proof.Proof.LibDotRecord
import Idealize.ShloMosaic.Lib.Pipeline.Value
import Idealize.ShloMosaic.Lib.ValueIdx

noncomputable section

namespace Cert.KernelIdeal.Hand

open Idealize.ShloMosaic Idealize.ShloMosaic.ValueIdx
open Cert.KernelIdeal.Gen

/-- A band of b columns starting at column o, cut out of an [a, n] tile, at (p, q): the tile at (p, o + q). -/
theorem band_apply {α : Type} {a n b : ℕ} (o : ℕ) (v : (⟨2, ![a, n]⟩ : Shape).Idx → α)
    (h : (⟨2, ![a, n]⟩ : Shape).Slices ![0, o] ⟨2, ![a, b]⟩) (p : Fin a) (q : Fin b) (hq : o + q.val < n) :
    extractStridedSlice ⟨2, ![a, b]⟩ ![0, o] v h (ix2 p q) = v (ix2 p ⟨o + q.val, hq⟩) := by
  refine extractStridedSlice_apply ![0, o] v h (ix2 p q) (ix2 p ⟨o + q.val, hq⟩) fun ax => ?_
  match ax with
  | ⟨0, _⟩ => show p.val = 0 + p.val; omega
  | ⟨1, _⟩ => rfl

/-- The stacked linear stage at (p, c): the block times the stacked matrix, plus the stacked bias row. -/
def wideAt {n : ℕ} (x : (⟨2, ![n, 128]⟩ : Shape).Idx → EReal) (w : (⟨2, ![128, 384]⟩ : Shape).Idx → EReal) (b : (⟨2, ![1, 384]⟩ : Shape).Idx → EReal) (p : Fin n) (c : Fin 384) : EReal :=
  (∑ k : Fin 128, x (ix2 p k) * w (ix2 k c)) + b (ix2 (0 : Fin 1) c)

/-- The convolution stage at (p, q). -/
def convAt {n : ℕ} (g : (⟨2, ![n, 128]⟩ : Shape).Idx → EReal) (w : (⟨2, ![128, 128]⟩ : Shape).Idx → EReal) (b : (⟨2, ![1, 128]⟩ : Shape).Idx → EReal) (p : Fin n) (q : Fin 128) : EReal :=
  (∑ k : Fin 128, g (ix2 p k) * w (ix2 k q)) + b (ix2 (0 : Fin 1) q)

theorem wide_apply (x : FVec Ideal S10000x128 .f32) (w : FVec Ideal S128x384 .f32) (b : FVec Ideal S1x384 .f32) (p : Fin 10000) (c : Fin 384) :
    addf (matmul dot_S10000x128_S128x384_S10000x384_1_0_0_1_n_n (some .fp32) x (shapeCast S128x384 w shapeCasts_S128x384_S128x384)
        (constant S10000x384 .f32 0x00000000#32))
      (broadcastTo S10000x384 (shapeCast S1x384 b shapeCasts_S1x384_S1x384) broadcasts_S1x384_S10000x384) (ix2 p c)
      = wideAt x w b p c := by
  rw [addf_apply, shapeCast_self, shapeCast_self]
  unfold wideAt
  refine congrArg₂ (· + ·) ?_ ?_
  · exact DotRecord.matmul_zero_apply _ rfl rfl rfl rfl rfl rfl x w (some .fp32) p c
  · exact DotRecord.broadcastTo_1b_ab_apply b broadcasts_S1x384_S10000x384 p c

theorem conv_apply (g : FVec Ideal S10000x128 .f32) (w : FVec Ideal S128x128 .f32) (b : FVec Ideal S1x128 .f32) (p : Fin 10000) (q : Fin 128) :
    addf (matmul dot_S10000x128_S128x128_S10000x128_1_0_0_1_n_n (some .fp32) (shapeCast S10000x128 g shapeCasts_S10000x128_S10000x128) w
        (constant S10000x128 .f32 0x00000000#32))
      (broadcastTo S10000x128 (shapeCast S1x128 b shapeCasts_S1x128_S1x128) broadcasts_S1x128_S10000x128) (ix2 p q)
      = convAt g w b p q := by
  rw [addf_apply, shapeCast_self, shapeCast_self]
  unfold convAt
  refine congrArg₂ (· + ·) ?_ ?_
  · exact DotRecord.matmul_zero_apply _ rfl rfl rfl rfl rfl rfl g w (some .fp32) p q
  · exact DotRecord.broadcastTo_1b_ab_apply b broadcasts_S1x128_S10000x128 p q

/-- The layer on a block at (p, q), from the two stages. -/
def blockAt {n : ℕ} (x agg : (⟨2, ![n, 128]⟩ : Shape).Idx → EReal) (wabc : (⟨2, ![128, 384]⟩ : Shape).Idx → EReal) (babc : (⟨2, ![1, 384]⟩ : Shape).Idx → EReal)
    (wconv : (⟨2, ![128, 128]⟩ : Shape).Idx → EReal) (bconv : (⟨2, ![1, 128]⟩ : Shape).Idx → EReal) (p : Fin n) (q : Fin 128) : EReal :=
  max ((wideAt x wabc babc p ⟨0 + q.val, by omega⟩ + convAt agg wconv bconv p q)
      + wideAt x wabc babc p ⟨128 + q.val, by omega⟩ * wideAt x wabc babc p ⟨256 + q.val, by omega⟩)
    (Ideal.ofBits .f32 0x00000000#32)

/-- The first region's payload at (p, q). -/
theorem payA_apply (x agg : FVec Ideal S10000x128 .f32) (wabc : FVec Ideal S128x384 .f32) (babc : FVec Ideal S1x384 .f32)
    (wconv : FVec Ideal S128x128 .f32) (bconv : FVec Ideal S1x128 .f32) (p : Fin 10000) (q : Fin 128) :
    k0_pay1 (F := Ideal) x agg wabc wconv babc bconv (ix2 p q) = blockAt x agg wabc babc wconv bconv p q := by
  unfold k0_pay1 blockAt
  rw [maximumf_apply, addf_apply, addf_apply, mulf_apply, broadcast_apply,
    band_apply 0 _ _ p q (by omega), band_apply 128 _ _ p q (by omega), band_apply 256 _ _ p q (by omega),
    wide_apply, wide_apply, wide_apply, conv_apply]
  rfl

/-- The second region's payload at (p, q): the same layer (its printed text differs only in casting x to its own
    shape first, which changes nothing). -/
theorem payB_apply (x agg : FVec Ideal S10000x128 .f32) (wabc : FVec Ideal S128x384 .f32) (babc : FVec Ideal S1x384 .f32)
    (wconv : FVec Ideal S128x128 .f32) (bconv : FVec Ideal S1x128 .f32) (p : Fin 10000) (q : Fin 128) :
    k1_pay1 (F := Ideal) x agg wabc wconv babc bconv (ix2 p q) = blockAt x agg wabc babc wconv bconv p q := by
  unfold k1_pay1 blockAt
  rw [maximumf_apply, addf_apply, addf_apply, mulf_apply, broadcast_apply,
    band_apply 0 _ _ p q (by omega), band_apply 128 _ _ p q (by omega), band_apply 256 _ _ p q (by omega),
    shapeCast_self x, wide_apply, wide_apply, wide_apply, conv_apply]
  rfl

end Cert.KernelIdeal.Hand

end
-- ==== Proof.IdealArray.lean ====
/-
  From blocks to the whole array: what a layer's region leaves in its output array.

  The region's five grid points write back disjoint row blocks: point t writes rows 10000·t … 10000·t + 9999, all 128
  columns.  The block of x and of agg it reads at point t are the same rows of those arrays; the weight and bias windows
  are the whole arrays at every point.  So what point t writes back is rows 10000·t … of ONE function of the arrays the
  region finds — at (P, q), the layer's entry formula over row P of x and agg — and, the five blocks covering every row,
  the output array ends holding that function.
-/
import proofs.«155698_j38422777430259_2_alg».proof.Proof.IdealBlocks
import proofs.«155698_j38422777430259_2_alg».proof.Proof.IdealEntry

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The layer over whole arrays with the weights still stacked: at (P, q) the block formula over row P. -/
def arrayFn (x agg : S50000x128.Idx → EReal) (wabc : S128x384.Idx → EReal) (babc : S1x384.Idx → EReal)
    (wconv : S128x128.Idx → EReal) (bconv : S1x128.Idx → EReal) : S50000x128.Idx → EReal :=
  fun i => blockAt x agg wabc babc wconv bconv (i 0) (i 1)

theorem arrayFn_apply (x agg : S50000x128.Idx → EReal) (wabc : S128x384.Idx → EReal) (babc : S1x384.Idx → EReal)
    (wconv : S128x128.Idx → EReal) (bconv : S1x128.Idx → EReal) (P : Fin 50000) (q : Fin 128) :
    arrayFn x agg wabc babc wconv bconv (ix2 P q) = blockAt x agg wabc babc wconv bconv P q := rfl

/-! # The first layer's region -/

/-- Row p of point t's block is row 10000·t + p of the array. -/
def rowA (t : Fin cfg0.N) (p : Fin 10000) : Fin 50000 :=
  ⟨t.val * 10000 + p.val, by have ht : t.val < 5 := lt_of_lt_of_eq t.isLt N_0; have := p.isLt; omega⟩

/-- The printed index maps, decided over the five points: the row windows (x, agg, the output) sit at block t, the
    weight and bias windows at block 0. -/
theorem pointsA : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem readA_0 (c : Dev nD) (t : Fin cfg0.N) (p : Fin 10000) (k : Fin 128) :
    blkA V c 0 t (ix2 p k) = V c main_arg0 (ix2 (rowA t p) k) := by
  show V c main_arg0 (((cfg0.win 0).blk t).view.emb (ix2 p k)) = _
  refine congrArg (V c main_arg0) ?_
  obtain ⟨e0, e1, -⟩ := pointsA t
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

theorem readA_1 (c : Dev nD) (t : Fin cfg0.N) (p : Fin 10000) (k : Fin 128) :
    blkA V c 1 t (ix2 p k) = V c main_v23 (ix2 (rowA t p) k) := by
  show V c main_v23 (((cfg0.win 1).blk t).view.emb (ix2 p k)) = _
  refine congrArg (V c main_v23) ?_
  obtain ⟨-, -, e0, e1, -⟩ := pointsA t
  funext a; apply Fin.ext
  match a with
  | ⟨0, _⟩ => show win0_1.index t (0 : Fin 2) * 10000 + 1 * p.val = t.val * 10000 + p.val; omega
  | ⟨1, _⟩ => show win0_1.index t (1 : Fin 2) * 128 + 1 * k.val = k.val; omega

theorem readA_2 (c : Dev nD) (t : Fin cfg0.N) (k : Fin 128) (j : Fin 384) :
    blkA V c 2 t (ix2 k j) = V c main_v4 (ix2 k j) := by
  show V c main_v4 (((cfg0.win 2).blk t).view.emb (ix2 k j)) = _
  refine congrArg (V c main_v4) ?_
  obtain ⟨-, -, -, -, e0, e1, -⟩ := pointsA t
  funext a; apply Fin.ext
  match a with
  | ⟨0, _⟩ => show win0_2.index t (0 : Fin 2) * 128 + 1 * k.val = k.val; omega
  | ⟨1, _⟩ => show win0_2.index t (1 : Fin 2) * 384 + 1 * j.val = j.val; omega

theorem readA_3 (c : Dev nD) (t : Fin cfg0.N) (z : Fin 1) (j : Fin 384) :
    blkA V c 3 t (ix2 z j) = V c main_v6 (ix2 z j) := by
  show V c main_v6 (((cfg0.win 3).blk t).view.emb (ix2 z j)) = _
  refine congrArg (V c main_v6) ?_
  obtain ⟨-, -, -, -, -, -, e0, e1, -⟩ := pointsA t
  funext a; apply Fin.ext
  match a with
  | ⟨0, _⟩ => show win0_3.index t (0 : Fin 2) * 1 + 1 * z.val = z.val; omega
  | ⟨1, _⟩ => show win0_3.index t (1 : Fin 2) * 384 + 1 * j.val = j.val; omega

theorem readA_4 (c : Dev nD) (t : Fin cfg0.N) (k : Fin 128) (q : Fin 128) :
    blkA V c 4 t (ix2 k q) = V c main_arg9 (ix2 k q) := by
  show V c main_arg9 (((cfg0.win 4).blk t).view.emb (ix2 k q)) = _
  refine congrArg (V c main_arg9) ?_
  obtain ⟨-, -, -, -, -, -, -, -, e0, e1, -⟩ := pointsA t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

theorem readA_5 (c : Dev nD) (t : Fin cfg0.N) (z : Fin 1) (q : Fin 128) :
    blkA V c 5 t (ix2 z q) = V c main_v10 (ix2 z q) := by
  show V c main_v10 (((cfg0.win 5).blk t).view.emb (ix2 z q)) = _
  refine congrArg (V c main_v10) ?_
  obtain ⟨-, -, -, -, -, -, -, -, -, -, e0, e1, -⟩ := pointsA t
  funext a; apply Fin.ext
  match a with
  | ⟨0, _⟩ => show win0_5.index t (0 : Fin 2) * 1 + 1 * z.val = z.val; omega
  | ⟨1, _⟩ => show win0_5.index t (1 : Fin 2) * 128 + 1 * q.val = q.val; omega

/-- Entry (p, q) of the output block of point t is entry (10000·t + p, q) of the output array. -/
theorem placeA (t : Fin cfg0.N) (p : Fin 10000) (q : Fin 128) :
    ((cfg0.win 6).blk t).view.emb (ix2 p q) = (ix2 (rowA t p) q : S50000x128.Idx) := by
  obtain ⟨-, -, -, -, -, -, -, -, -, -, -, -, e0, e1⟩ := pointsA t
  funext a; apply Fin.ext
  match a with
  | ⟨0, _⟩ => show win0_6.index t (0 : Fin 2) * 10000 + 1 * p.val = t.val * 10000 + p.val; omega
  | ⟨1, _⟩ => show win0_6.index t (1 : Fin 2) * 128 + 1 * q.val = q.val; omega

/-- What point t writes back is block t of the layer's whole-array function of the arrays the region finds. -/
theorem flushedA_eq (c : Dev nD) (t : Fin cfg0.N) :
    (datA V c).flushed 6 t = ((cfg0.win 6).blk t).view.read (Elt Ideal)
      (arrayFn (V c main_arg0) (V c main_v23) (V c main_v4) (V c main_v6) (V c main_arg9) (V c main_v10)) := by
  show (cfg0.win 6).cut (grid0.coords t) ((datA V c).after 6 t) = _
  rw [afterA_6]
  unfold outA
  rw [View.canon_unit_zero zeroOffsets]
  simp only [View.ld_unit_zero (S := S10000x128) zeroOffsets, View.ld_unit_zero (S := S128x384) zeroOffsets,
    View.ld_unit_zero (S := S1x384) zeroOffsets, View.ld_unit_zero (S := S128x128) zeroOffsets,
    View.ld_unit_zero (S := S1x128) zeroOffsets]
  funext j
  obtain ⟨p, q, rfl⟩ : ∃ (p : Fin 10000) (q : Fin 128), j = ix2 p q := ⟨j 0, j 1, eq_ix2 j⟩
  show k0_pay1 (F := Ideal) (blkA V c 0 t) (blkA V c 1 t) (blkA V c 2 t) (blkA V c 4 t) (blkA V c 3 t) (blkA V c 5 t) (ix2 p q)
    = arrayFn (V c main_arg0) (V c main_v23) (V c main_v4) (V c main_v6) (V c main_arg9) (V c main_v10)
        (((cfg0.win 6).blk t).view.emb (ix2 p q))
  rw [placeA t p q, arrayFn_apply]
  refine (payA_apply (blkA V c 0 t) (blkA V c 1 t) (blkA V c 2 t) (blkA V c 3 t) (blkA V c 4 t) (blkA V c 5 t) p q).trans ?_
  unfold blockAt wideAt convAt
  simp only [readA_0 V c t, readA_1 V c t, readA_2 V c t, readA_3 V c t, readA_4 V c t, readA_5 V c t]

/-- An index of the output array is in point t's block iff each coordinate is in the block's range on its axis. -/
theorem mem_blockA (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v24).slice (win0_6.rect t)).set ↔ _
  rw [View.set_slice_whole, Rect.mem_set_unit]
  exact Iff.rfl

/-- Every row of the output array is in the block of the point that is the row's number divided by 10000. -/
theorem coverA (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 5 := N_0
  let t : Fin cfg0.N := ⟨(i 0).val / 10000, by rw [hN]; omega⟩
  obtain ⟨-, -, -, -, -, -, -, -, -, -, -, -, e0, e1⟩ := pointsA t
  have et : t.val = (i 0).val / 10000 := rfl
  refine ⟨t, flush0_6 t, ?_⟩
  rw [mem_blockA]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- The first region leaves its output array at the layer's function of the arrays it found. -/
theorem leavesA (c : Dev nD) : (datA V c).arrAt 6 cfg0.N
    = arrayFn (V c main_arg0) (V c main_v23) (V c main_v4) (V c main_v6) (V c main_arg9) (V c main_v10) :=
  (datA V c).arrAt_eq_of_cover 6 _ (fun t _ => flushedA_eq V c t) coverA

/-! # The second layer's region -/

def rowB (t : Fin cfg1.N) (p : Fin 10000) : Fin 50000 :=
  ⟨t.val * 10000 + p.val, by have ht : t.val < 5 := lt_of_lt_of_eq t.isLt N_1; have := p.isLt; omega⟩

theorem pointsB : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem readB_0 (c : Dev nD) (t : Fin cfg1.N) (p : Fin 10000) (k : Fin 128) :
    blkB V c 0 t (ix2 p k) = V c main_v24 (ix2 (rowB t p) k) := by
  show V c main_v24 (((cfg1.win 0).blk t).view.emb (ix2 p k)) = _
  refine congrArg (V c main_v24) ?_
  obtain ⟨e0, e1, -⟩ := pointsB t
  funext a; apply Fin.ext
  match a with
  | ⟨0, _⟩ => show win1_0.index t (0 : Fin 2) * 10000 + 1 * p.val = t.val * 10000 + p.val; omega
  | ⟨1, _⟩ => show win1_0.index t (1 : Fin 2) * 128 + 1 * k.val = k.val; omega

theorem readB_1 (c : Dev nD) (t : Fin cfg1.N) (p : Fin 10000) (k : Fin 128) :
    blkB V c 1 t (ix2 p k) = V c main_v36 (ix2 (rowB t p) k) := by
  show V c main_v36 (((cfg1.win 1).blk t).view.emb (ix2 p k)) = _
  refine congrArg (V c main_v36) ?_
  obtain ⟨-, -, e0, e1, -⟩ := pointsB t
  funext a; apply Fin.ext
  match a with
  | ⟨0, _⟩ => show win1_1.index t (0 : Fin 2) * 10000 + 1 * p.val = t.val * 10000 + p.val; omega
  | ⟨1, _⟩ => show win1_1.index t (1 : Fin 2) * 128 + 1 * k.val = k.val; omega

theorem readB_2 (c : Dev nD) (t : Fin cfg1.N) (k : Fin 128) (j : Fin 384) :
    blkB V c 2 t (ix2 k j) = V c main_v7 (ix2 k j) := by
  show V c main_v7 (((cfg1.win 2).blk t).view.emb (ix2 k j)) = _
  refine congrArg (V c main_v7) ?_
  obtain ⟨-, -, -, -, e0, e1, -⟩ := pointsB t
  funext a; apply Fin.ext
  match a with
  | ⟨0, _⟩ => show win1_2.index t (0 : Fin 2) * 128 + 1 * k.val = k.val; omega
  | ⟨1, _⟩ => show win1_2.index t (1 : Fin 2) * 384 + 1 * j.val = j.val; omega

theorem readB_3 (c : Dev nD) (t : Fin cfg1.N) (z : Fin 1) (j : Fin 384) :
    blkB V c 3 t (ix2 z j) = V c main_v9 (ix2 z j) := by
  show V c main_v9 (((cfg1.win 3).blk t).view.emb (ix2 z j)) = _
  refine congrArg (V c main_v9) ?_
  obtain ⟨-, -, -, -, -, -, e0, e1, -⟩ := pointsB t
  funext a; apply Fin.ext
  match a with
  | ⟨0, _⟩ => show win1_3.index t (0 : Fin 2) * 1 + 1 * z.val = z.val; omega
  | ⟨1, _⟩ => show win1_3.index t (1 : Fin 2) * 384 + 1 * j.val = j.val; omega

theorem readB_4 (c : Dev nD) (t : Fin cfg1.N) (k : Fin 128) (q : Fin 128) :
    blkB V c 4 t (ix2 k q) = V c main_arg17 (ix2 k q) := by
  show V c main_arg17 (((cfg1.win 4).blk t).view.emb (ix2 k q)) = _
  refine congrArg (V c main_arg17) ?_
  obtain ⟨-, -, -, -, -, -, -, -, e0, e1, -⟩ := pointsB t
  funext a; apply Fin.ext
  match a with
  | ⟨0, _⟩ => show win1_4.index t (0 : Fin 2) * 128 + 1 * k.val = k.val; omega
  | ⟨1, _⟩ => show win1_4.index t (1 : Fin 2) * 128 + 1 * q.val = q.val; omega

theorem readB_5 (c : Dev nD) (t : Fin cfg1.N) (z : Fin 1) (q : Fin 128) :
    blkB V c 5 t (ix2 z q) = V c main_v11 (ix2 z q) := by
  show V c main_v11 (((cfg1.win 5).blk t).view.emb (ix2 z q)) = _
  refine congrArg (V c main_v11) ?_
  obtain ⟨-, -, -, -, -, -, -, -, -, -, e0, e1, -⟩ := pointsB t
  funext a; apply Fin.ext
  match a with
  | ⟨0, _⟩ => show win1_5.index t (0 : Fin 2) * 1 + 1 * z.val = z.val; omega
  | ⟨1, _⟩ => show win1_5.index t (1 : Fin 2) * 128 + 1 * q.val = q.val; omega

theorem placeB (t : Fin cfg1.N) (p : Fin 10000) (q : Fin 128) :
    ((cfg1.win 6).blk t).view.emb (ix2 p q) = (ix2 (rowB t p) q : S50000x128.Idx) := by
  obtain ⟨-, -, -, -, -, -, -, -, -, -, -, -, e0, e1⟩ := pointsB t
  funext a; apply Fin.ext
  match a with
  | ⟨0, _⟩ => show win1_6.index t (0 : Fin 2) * 10000 + 1 * p.val = t.val * 10000 + p.val; omega
  | ⟨1, _⟩ => show win1_6.index t (1 : Fin 2) * 128 + 1 * q.val = q.val; omega

theorem flushedB_eq (c : Dev nD) (t : Fin cfg1.N) :
    (datB V c).flushed 6 t = ((cfg1.win 6).blk t).view.read (Elt Ideal)
      (arrayFn (V c main_v24) (V c main_v36) (V c main_v7) (V c main_v9) (V c main_arg17) (V c main_v11)) := by
  show (cfg1.win 6).cut (grid1.coords t) ((datB V c).after 6 t) = _
  rw [afterB_6]
  unfold outB
  rw [View.canon_unit_zero zeroOffsets]
  simp only [View.ld_unit_zero (S := S10000x128) zeroOffsets, View.ld_unit_zero (S := S128x384) zeroOffsets,
    View.ld_unit_zero (S := S1x384) zeroOffsets, View.ld_unit_zero (S := S128x128) zeroOffsets,
    View.ld_unit_zero (S := S1x128) zeroOffsets]
  funext j
  obtain ⟨p, q, rfl⟩ : ∃ (p : Fin 10000) (q : Fin 128), j = ix2 p q := ⟨j 0, j 1, eq_ix2 j⟩
  show k1_pay1 (F := Ideal) (blkB V c 0 t) (blkB V c 1 t) (blkB V c 2 t) (blkB V c 4 t) (blkB V c 3 t) (blkB V c 5 t) (ix2 p q)
    = arrayFn (V c main_v24) (V c main_v36) (V c main_v7) (V c main_v9) (V c main_arg17) (V c main_v11)
        (((cfg1.win 6).blk t).view.emb (ix2 p q))
  rw [placeB t p q, arrayFn_apply]
  refine (payB_apply (blkB V c 0 t) (blkB V c 1 t) (blkB V c 2 t) (blkB V c 3 t) (blkB V c 4 t) (blkB V c 5 t) p q).trans ?_
  unfold blockAt wideAt convAt
  simp only [readB_0 V c t, readB_1 V c t, readB_2 V c t, readB_3 V c t, readB_4 V c t, readB_5 V c t]

theorem mem_blockB (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v37).slice (win1_6.rect t)).set ↔ _
  rw [View.set_slice_whole, Rect.mem_set_unit]
  exact Iff.rfl

theorem coverB (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, -, -, -, -, -, -, -, -, e0, e1⟩ := pointsB t
  have et : t.val = (i 0).val / 10000 := rfl
  refine ⟨t, flush1_6 t, ?_⟩
  rw [mem_blockB]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- The second region leaves its output array at the layer's function of the arrays it found. -/
theorem leavesB (c : Dev nD) : (datB V c).arrAt 6 cfg1.N
    = arrayFn (V c main_v24) (V c main_v36) (V c main_v7) (V c main_v9) (V c main_arg17) (V c main_v11) :=
  (datB V c).arrAt_eq_of_cover 6 _ (fun t _ => flushedB_eq V c t) coverB

end Cert.KernelIdeal.Hand

end
-- ==== Proof.IdealHost.lean ====
/-
  What the host operations hand each region, and what the program returns.

  Before the first region the host stacks the first layer's three weight matrices and bias vectors, reshapes the
  convolution bias to a row, and aggregates the messages of x: gather the source row of every edge, scale it by the edge's
  weight, sum into the destination row.  Between the regions it aggregates the first region's output in the same way; the
  second layer's stacked operands were built at the start and nothing has touched them since.  Reading those operations
  off the program's list, the array the second region leaves — the program's result — is the layer's whole-array function
  applied twice: to x with its aggregated messages and the first stacked operands, and to that result with ITS aggregated
  messages and the second stacked operands.
-/
import proofs.«155698_j38422777430259_2_alg».proof.Proof.IdealRun
import proofs.«155698_j38422777430259_2_alg».proof.Proof.IdealArray
import Idealize.ShloMosaic.Lib.StableHlo.Run

set_option maxRecDepth 16384

noncomputable section

namespace Cert.KernelIdeal.Hand

open Idealize.ShloMosaic Idealize.ShloMosaic.TcCoe Idealize.ShloMosaic.StableHlo
open Idealize.SL Idealize.SL.Sem
open Cert.KernelIdeal.Gen

variable (m : (ℓ : Loc nD τ sig) → Buf (Elt Ideal) ℓ) (ρ : Dev nD → PrngReg)

/-- The source-node index of every edge: row 0 of the edge list, as a vector. -/
def sources (ei : (⟨S2x640000, .i32⟩ : BufTy).Contents (Elt Ideal)) : (⟨S640000, .i32⟩ : BufTy).Contents (Elt Ideal) :=
  shapeCast S640000 (extractStridedSlice S1x640000 ![0, 0] ei slices_S2x640000_S1x640000_0_0) shapeCasts_S1x640000_S640000
/-- The destination-node index of every edge: row 1 of the edge list, as a vector. -/
def targets (ei : (⟨S2x640000, .i32⟩ : BufTy).Contents (Elt Ideal)) : (⟨S640000, .i32⟩ : BufTy).Contents (Elt Ideal) :=
  shapeCast S640000 (extractStridedSlice S1x640000 ![1, 0] ei slices_S2x640000_S1x640000_1_0) shapeCasts_S1x640000_S640000

/-- The aggregation of messages, from the source and destination index vectors: gather the source rows of x (a negative
    index first wrapped by the row count), scale each by its edge's weight, and sum into the destination rows from zero. -/
def aggregateBy (x : (⟨S50000x128, .f32⟩ : BufTy).Contents (Elt Ideal)) (src dst : (⟨S640000, .i32⟩ : BufTy).Contents (Elt Ideal))
    (ea : (⟨S640000x1, .f32⟩ : BufTy).Contents (Elt Ideal)) : (⟨S50000x128, .f32⟩ : BufTy).Contents (Elt Ideal) :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 dst)
    (mulf (broadcastInDim S640000x128 ![0, 1] bcast_S640000x1_S640000x128_0_1 ea)
      (Host.gather gather_S50000x128_S640000x1_S640000x128_1_0_n_n_0_1_1128 x
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))

/-- The aggregation as a function of the features, the edge list and the edge weights. -/
def aggregate (x : (⟨S50000x128, .f32⟩ : BufTy).Contents (Elt Ideal)) (ei : (⟨S2x640000, .i32⟩ : BufTy).Contents (Elt Ideal))
    (ea : (⟨S640000x1, .f32⟩ : BufTy).Contents (Elt Ideal)) : (⟨S50000x128, .f32⟩ : BufTy).Contents (Elt Ideal) :=
  aggregateBy x (sources ei) (targets ei) ea

/-- Three weight matrices side by side. -/
abbrev sideBySide (wa wb wc : (⟨S128x128, .f32⟩ : BufTy).Contents (Elt Ideal)) : (⟨S128x384, .f32⟩ : BufTy).Contents (Elt Ideal) :=
  concatenate S128x384 1 [⟨S128x128, wa⟩, ⟨S128x128, wb⟩, ⟨S128x128, wc⟩] concatenates_S128x128_S128x128_S128x128_S128x384_d1
/-- Three bias vectors end to end, as one row. -/
abbrev endToEndRow (ba bb bc : (⟨S128, .f32⟩ : BufTy).Contents (Elt Ideal)) : (⟨S1x384, .f32⟩ : BufTy).Contents (Elt Ideal) :=
  shapeCast S1x384 (concatenate S384 0 [⟨S128, ba⟩, ⟨S128, bb⟩, ⟨S128, bc⟩] concatenates_S128_S128_S128_S384_d0) shapeCasts_S384_S1x384
/-- A bias vector as a row. -/
abbrev asRow (b : (⟨S128, .f32⟩ : BufTy).Contents (Elt Ideal)) : (⟨S1x128, .f32⟩ : BufTy).Contents (Elt Ideal) :=
  shapeCast S1x128 b shapeCasts_S128_S1x128

/-! ## The first region's operands -/

theorem in1_x (c : Dev nD) : entry1 m ρ c main_arg0 = m ((c : Thread nD τ).loc main_arg0) :=
  (StableHlo.after_of_writes_sub hostOps0 _ hostOps0_writes (by decide)).trans rfl
theorem in1_wconv (c : Dev nD) : entry1 m ρ c main_arg9 = m ((c : Thread nD τ).loc main_arg9) :=
  (StableHlo.after_of_writes_sub hostOps0 _ hostOps0_writes (by decide)).trans rfl
set_option maxHeartbeats 8000000 in
theorem in1_agg (c : Dev nD) : entry1 m ρ c main_v23
    = aggregate (m ((c : Thread nD τ).loc main_arg0)) (m ((c : Thread nD τ).loc main_arg1)) (m ((c : Thread nD τ).loc main_arg2)) := by
  show StableHlo.after hostOps0 (atLaunch m ρ c) (Proc.devRef .tc main_v23) = _
  dsimp only [hostOps0]
  after_results_simp <;> rfl
theorem in1_wabc (c : Dev nD) : entry1 m ρ c main_v4
    = sideBySide (m ((c : Thread nD τ).loc main_arg3)) (m ((c : Thread nD τ).loc main_arg5)) (m ((c : Thread nD τ).loc main_arg7)) := by
  show StableHlo.after hostOps0 (atLaunch m ρ c) (Proc.devRef .tc main_v4) = _
  dsimp only [hostOps0]
  after_results
  rfl
theorem in1_babc (c : Dev nD) : entry1 m ρ c main_v6
    = endToEndRow (m ((c : Thread nD τ).loc main_arg4)) (m ((c : Thread nD τ).loc main_arg6)) (m ((c : Thread nD τ).loc main_arg8)) := by
  show StableHlo.after hostOps0 (atLaunch m ρ c) (Proc.devRef .tc main_v6) = _
  dsimp only [hostOps0]
  after_results
  rfl
theorem in1_bconv (c : Dev nD) : entry1 m ρ c main_v10 = asRow (m ((c : Thread nD τ).loc main_arg10)) := by
  show StableHlo.after hostOps0 (atLaunch m ρ c) (Proc.devRef .tc main_v10) = _
  dsimp only [hostOps0]
  after_results
  rfl

/-- The first layer's result, as the first region leaves it. -/
def hidden (c : Dev nD) : (⟨S50000x128, .f32⟩ : BufTy).Contents (Elt Ideal) :=
  arrayFn (m ((c : Thread nD τ).loc main_arg0))
    (aggregate (m ((c : Thread nD τ).loc main_arg0)) (m ((c : Thread nD τ).loc main_arg1)) (m ((c : Thread nD τ).loc main_arg2)))
    (sideBySide (m ((c : Thread nD τ).loc main_arg3)) (m ((c : Thread nD τ).loc main_arg5)) (m ((c : Thread nD τ).loc main_arg7)))
    (endToEndRow (m ((c : Thread nD τ).loc main_arg4)) (m ((c : Thread nD τ).loc main_arg6)) (m ((c : Thread nD τ).loc main_arg8)))
    (m ((c : Thread nD τ).loc main_arg9)) (asRow (m ((c : Thread nD τ).loc main_arg10)))

theorem out1 (c : Dev nD) : pastLayer1 m ρ c (Proc.devRef .tc main_v24) = hidden m c := by
  refine (pastLayer1_arr m ρ c 6).trans ((leavesA (entry1 m ρ) c).trans ?_)
  unfold hidden
  rw [in1_x m ρ c, in1_agg m ρ c, in1_wabc m ρ c, in1_babc m ρ c, in1_wconv m ρ c, in1_bconv m ρ c]

/-! ## The second region's operands -/

/-- A buffer the second stretch of host operations does not write and that is no array of the first region holds at the
    second region's entry what the first stretch left in it. -/
theorem carried (c : Dev nD) (b : Ref sig .tc) (h1 : b ∉ hostOps1_W) (hA : ∀ w, Pipeline.arrRef spec0 w ≠ b) :
    atLayer2 m ρ c (Proc.devRef .tc b) = atLayer1 m ρ c (Proc.devRef .tc b) :=
  (StableHlo.after_of_writes_sub hostOps1 _ hostOps1_writes h1).trans (pastLayer1_of_ne m ρ c b hA)

theorem in2_x (c : Dev nD) : entry2 m ρ c main_v24 = hidden m c :=
  (StableHlo.after_of_writes_sub hostOps1 _ hostOps1_writes (by decide)).trans (out1 m ρ c)
theorem in2_wconv (c : Dev nD) : entry2 m ρ c main_arg17 = m ((c : Thread nD τ).loc main_arg17) :=
  (carried m ρ c main_arg17 (by decide) (by decide)).trans ((StableHlo.after_of_writes_sub hostOps0 _ hostOps0_writes (by decide)).trans rfl)
theorem in2_wabc (c : Dev nD) : entry2 m ρ c main_v7
    = sideBySide (m ((c : Thread nD τ).loc main_arg11)) (m ((c : Thread nD τ).loc main_arg13)) (m ((c : Thread nD τ).loc main_arg15)) := by
  refine (carried m ρ c main_v7 (by decide) (by decide)).trans ?_
  show StableHlo.after hostOps0 (atLaunch m ρ c) (Proc.devRef .tc main_v7) = _
  dsimp only [hostOps0]
  after_results
  rfl
theorem in2_babc (c : Dev nD) : entry2 m ρ c main_v9
    = endToEndRow (m ((c : Thread nD τ).loc main_arg12)) (m ((c : Thread nD τ).loc main_arg14)) (m ((c : Thread nD τ).loc main_arg16)) := by
  refine (carried m ρ c main_v9 (by decide) (by decide)).trans ?_
  show StableHlo.after hostOps0 (atLaunch m ρ c) (Proc.devRef .tc main_v9) = _
  dsimp only [hostOps0]
  after_results
  rfl
theorem in2_bconv (c : Dev nD) : entry2 m ρ c main_v11 = asRow (m ((c : Thread nD τ).loc main_arg18)) := by
  refine (carried m ρ c main_v11 (by decide) (by decide)).trans ?_
  show StableHlo.after hostOps0 (atLaunch m ρ c) (Proc.devRef .tc main_v11) = _
  dsimp only [hostOps0]
  after_results
  rfl

/-- What the first region left behind of the edge list and the edge weights, as the second stretch reads it. -/
theorem kept_sources (c : Dev nD) : pastLayer1 m ρ c (Proc.devRef .tc main_v1) = sources (m ((c : Thread nD τ).loc main_arg1)) := by
  refine (pastLayer1_of_ne m ρ c main_v1 (by decide)).trans ?_
  show StableHlo.after hostOps0 (atLaunch m ρ c) (Proc.devRef .tc main_v1) = _
  dsimp only [hostOps0]
  after_results
  rfl
theorem kept_targets (c : Dev nD) : pastLayer1 m ρ c (Proc.devRef .tc main_v3) = targets (m ((c : Thread nD τ).loc main_arg1)) := by
  refine (pastLayer1_of_ne m ρ c main_v3 (by decide)).trans ?_
  show StableHlo.after hostOps0 (atLaunch m ρ c) (Proc.devRef .tc main_v3) = _
  dsimp only [hostOps0]
  after_results
  rfl
theorem kept_weights (c : Dev nD) : pastLayer1 m ρ c (Proc.devRef .tc main_arg2) = m ((c : Thread nD τ).loc main_arg2) :=
  (pastLayer1_of_ne m ρ c main_arg2 (by decide)).trans ((StableHlo.after_of_writes_sub hostOps0 _ hostOps0_writes (by decide)).trans rfl)

theorem in2_agg (c : Dev nD) : entry2 m ρ c main_v36
    = aggregate (hidden m c) (m ((c : Thread nD τ).loc main_arg1)) (m ((c : Thread nD τ).loc main_arg2)) := by
  show StableHlo.after hostOps1 (pastLayer1 m ρ c) (Proc.devRef .tc main_v36) = _
  dsimp only [hostOps1]
  after_results
  rw [kept_sources m ρ c, kept_targets m ρ c, kept_weights m ρ c, out1 m ρ c]
  rfl

/-! ## The result -/

/-- The program's result buffer ends at the layer's whole-array function of the first layer's result, its aggregated
    messages and the second layer's stacked operands. -/
theorem result_is (c : Dev nD) : pastLayer2 m ρ c (Proc.devRef .tc main_v37)
    = arrayFn (hidden m c)
        (aggregate (hidden m c) (m ((c : Thread nD τ).loc main_arg1)) (m ((c : Thread nD τ).loc main_arg2)))
        (sideBySide (m ((c : Thread nD τ).loc main_arg11)) (m ((c : Thread nD τ).loc main_arg13)) (m ((c : Thread nD τ).loc main_arg15)))
        (endToEndRow (m ((c : Thread nD τ).loc main_arg12)) (m ((c : Thread nD τ).loc main_arg14)) (m ((c : Thread nD τ).loc main_arg16)))
        (m ((c : Thread nD τ).loc main_arg17)) (asRow (m ((c : Thread nD τ).loc main_arg18))) := by
  refine (pastLayer2_arr m ρ c 6).trans ((leavesB (entry2 m ρ) c).trans ?_)
  rw [in2_x m ρ c, in2_agg m ρ c, in2_wabc m ρ c, in2_babc m ρ c, in2_wconv m ρ c, in2_bconv m ρ c]

end Cert.KernelIdeal.Hand

end
-- ==== Proof.LayerSpec.lean ====
/-
  One layer of the network as a function of its operands, entry by entry, on the extended reals.

  For node features x and aggregated messages agg (both n rows of 128), 128×128 weight matrices and 128-entry bias
  vectors, a linear map reads at (p, q)
      lin x w b p q = (∑ k, x(p,k) · w(k,q)) + b(q),
  and the layer is
      layer = max( (lin x wa ba + lin agg wconv bconv) + lin x wb bb · lin x wc bc , z )
  with z the rectifier's floor (the float word of zero, kept as a word: both programs use the same one).
  Both programs compute exactly this at every entry, with these operations in this order; no law of arithmetic is
  needed to join them, only the reading of each program's layout operations at an entry.
-/
import Idealize.ShloMosaic.PureOps.Ideal
import Idealize.ShloMosaic.Lib.ValueIdx

namespace GraphLayer

open Idealize.ShloMosaic Idealize.ShloMosaic.ValueIdx

/-- A linear map with bias, x·w + b, at row p and column q. -/
noncomputable def lin {n : ℕ} (x : (⟨2, ![n, 128]⟩ : Shape).Idx → EReal) (w : (⟨2, ![128, 128]⟩ : Shape).Idx → EReal)
    (b : (⟨1, ![128]⟩ : Shape).Idx → EReal) (p : Fin n) (q : Fin 128) : EReal :=
  (∑ k : Fin 128, x (ix2 p k) * w (ix2 k q)) + b (ix1 q)

/-- One layer at row p and column q: the rectified sum of a linear map of x, a linear map of the aggregated messages,
    and the product of two more linear maps of x. -/
noncomputable def layerAt {n : ℕ} (z : EReal) (x agg : (⟨2, ![n, 128]⟩ : Shape).Idx → EReal)
    (wa wb wc wconv : (⟨2, ![128, 128]⟩ : Shape).Idx → EReal) (ba bb bc bconv : (⟨1, ![128]⟩ : Shape).Idx → EReal)
    (p : Fin n) (q : Fin 128) : EReal :=
  max ((lin x wa ba p q + lin agg wconv bconv p q) + lin x wb bb p q * lin x wc bc p q) z

/-- The layer as an array. -/
noncomputable def layer {n : ℕ} (z : EReal) (x agg : (⟨2, ![n, 128]⟩ : Shape).Idx → EReal)
    (wa wb wc wconv : (⟨2, ![128, 128]⟩ : Shape).Idx → EReal) (ba bb bc bconv : (⟨1, ![128]⟩ : Shape).Idx → EReal) :
    (⟨2, ![n, 128]⟩ : Shape).Idx → EReal :=
  fun i => layerAt z x agg wa wb wc wconv ba bb bc bconv (i 0) (i 1)

theorem layer_apply {n : ℕ} (z : EReal) (x agg : (⟨2, ![n, 128]⟩ : Shape).Idx → EReal)
    (wa wb wc wconv : (⟨2, ![128, 128]⟩ : Shape).Idx → EReal) (ba bb bc bconv : (⟨1, ![128]⟩ : Shape).Idx → EReal)
    (p : Fin n) (q : Fin 128) :
    layer z x agg wa wb wc wconv ba bb bc bconv (ix2 p q) = layerAt z x agg wa wb wc wconv ba bb bc bconv p q := rfl

end GraphLayer
-- ==== Proof.LibEndToEnd.lean ====
/-
  Arrays laid end to end along one axis, read at an entry.

  When `N` pieces of ONE shape, each of extent `c` along the joined axis, are laid end to end, position `k` on that axis
  falls in piece `k / c` at its own position `k % c`; the other coordinates are unchanged. This module states that for the
  last axis of a matrix (`[a, c]` pieces into `[a, w]`) and of a rank-3 array (`[a, b, c]` pieces into `[a, b, w]`), with the
  pieces given as a family over `Fin N`, and then for the literal lists of two, three and five pieces. It also reads the
  two-piece join along the MIDDLE axis of a rank-3 array — what a rotation of that axis by a fixed amount is made of: the
  first `b₁` positions come from the first piece, the rest from the second at the position less `b₁`.
  Every extent is generic; the entries may be of any type.
-/
import Idealize.ShloMosaic.Lib.ValueIdx
import Idealize.ShloMosaic.Lib.Pipeline.Value

namespace EndToEnd

open Idealize.ShloMosaic Idealize.ShloMosaic.ValueIdx

variable {α : Type}

/-- The piece-and-position reading of a position `k` on the joined axis, against pieces of extent `c`. -/
theorem div_lt {c w N : ℕ} (hw : w = N * c) (hc : 0 < c) (k : Fin w) : k.val / c < N :=
  (Nat.div_lt_iff_lt_mul hc).2 (hw ▸ k.isLt)

/-! ## Along the last axis of a matrix -/

/-- `N` matrices `[a, c]` joined along axis 1 into `[a, w]`: at `(p, k)`, piece `k / c` at `(p, k % c)`. -/
theorem cols_apply {a c w N : ℕ} (f : Fin N → ((⟨2, ![a, c]⟩ : Shape).Idx → α))
    (h : Shape.Concatenates ((List.ofFn fun n : Fin N => (⟨⟨2, ![a, c]⟩, f n⟩ : (s : Shape) × (s.Idx → α))).map (·.1))
      ⟨2, ![a, w]⟩ (1 : Fin 2))
    (hc : 0 < c) (p : Fin a) (k : Fin w) (n : Fin N) (hn : k.val / c = n.val) :
    concatenate ⟨2, ![a, w]⟩ (1 : Fin 2) (List.ofFn fun n : Fin N => (⟨⟨2, ![a, c]⟩, f n⟩ : (s : Shape) × (s.Idx → α))) h
        (ix2 p k)
      = f n (ix2 p ⟨k.val % c, Nat.mod_lt _ hc⟩) := by
  refine concatenate_ofFn_apply (t := ⟨2, ![a, w]⟩) (s₁ := ⟨2, ![a, c]⟩) (1 : Fin 2) f h rfl c rfl (ix2 p k) n hn
    (ix2 p ⟨k.val % c, Nat.mod_lt _ hc⟩) rfl fun b hb => ?_
  match b with
  | ⟨0, _⟩ => rfl
  | ⟨1, _⟩ => exact absurd rfl hb

/-! ## Along the last axis of a rank-3 array -/

/-- `N` arrays `[a, b, c]` joined along axis 2 into `[a, b, w]`: at `(p, r, k)`, piece `k / c` at `(p, r, k % c)`. -/
theorem last3_apply {a b c w N : ℕ} (f : Fin N → ((⟨3, ![a, b, c]⟩ : Shape).Idx → α))
    (h : Shape.Concatenates ((List.ofFn fun n : Fin N => (⟨⟨3, ![a, b, c]⟩, f n⟩ : (s : Shape) × (s.Idx → α))).map (·.1))
      ⟨3, ![a, b, w]⟩ (2 : Fin 3))
    (hc : 0 < c) (p : Fin a) (r : Fin b) (k : Fin w) (n : Fin N) (hn : k.val / c = n.val) :
    concatenate ⟨3, ![a, b, w]⟩ (2 : Fin 3) (List.ofFn fun n : Fin N => (⟨⟨3, ![a, b, c]⟩, f n⟩ : (s : Shape) × (s.Idx → α))) h
        (ix3 p r k)
      = f n (ix3 p r ⟨k.val % c, Nat.mod_lt _ hc⟩) := by
  refine concatenate_ofFn_apply (t := ⟨3, ![a, b, w]⟩) (s₁ := ⟨3, ![a, b, c]⟩) (2 : Fin 3) f h rfl c rfl (ix3 p r k) n hn
    (ix3 p r ⟨k.val % c, Nat.mod_lt _ hc⟩) rfl fun d hd => ?_
  match d with
  | ⟨0, _⟩ => rfl
  | ⟨1, _⟩ => rfl
  | ⟨2, _⟩ => exact absurd rfl hd

/-! ## Two pieces along the middle axis of a rank-3 array -/

/-- `[a, b₁, c]` and `[a, b₂, c]` joined along axis 1 into `[a, b, c]`, at a middle position inside the first piece. -/
theorem mid_left {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : r.val < b₁) :
    concatenate ⟨3, ![a, b, c]⟩ (1 : Fin 3) [⟨⟨3, ![a, b₁, c]⟩, x₁⟩, ⟨⟨3, ![a, b₂, c]⟩, x₂⟩] h (ix3 p r q)
      = x₁ (ix3 p ⟨r.val, hr⟩ q) := by
  refine concatenate_pair_apply_left (t := ⟨3, ![a, b, c]⟩) (s₁ := ⟨3, ![a, b₁, c]⟩) (s₂ := ⟨3, ![a, b₂, c]⟩) (1 : Fin 3) x₁ x₂ h
    (ix3 p r q) rfl (ix3 p ⟨r.val, hr⟩ q) fun d => ?_
  match d with
  | ⟨0, _⟩ => rfl
  | ⟨1, _⟩ => rfl
  | ⟨2, _⟩ => rfl

/-- The same at a middle position past the first piece: the second piece at the position less `b₁`. -/
theorem mid_right {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : b₁ ≤ r.val) (hr₂ : r.val - b₁ < b₂) :
    concatenate ⟨3, ![a, b, c]⟩ (1 : Fin 3) [⟨⟨3, ![a, b₁, c]⟩, x₁⟩, ⟨⟨3, ![a, b₂, c]⟩, x₂⟩] h (ix3 p r q)
      = x₂ (ix3 p ⟨r.val - b₁, hr₂⟩ q) := by
  refine concatenate_pair_apply_right (t := ⟨3, ![a, b, c]⟩) (s₁ := ⟨3, ![a, b₁, c]⟩) (s₂ := ⟨3, ![a, b₂, c]⟩) (1 : Fin 3) x₁ x₂ h
    (ix3 p r q) rfl rfl (ix3 p ⟨r.val - b₁, hr₂⟩ q) (fun d hd => ?_) ?_
  · match d with
    | ⟨0, _⟩ => rfl
    | ⟨1, _⟩ => exact absurd rfl hd
    | ⟨2, _⟩ => rfl
  · show r.val - b₁ + b₁ = r.val
    omega

end EndToEnd
-- ==== Proof.Unstack.lean ====
/-
  The stacked operands, unstacked.

  The kernel's program lays the three weight matrices side by side, [Wa | Wb | Wc] : 128×384, and the three bias vectors
  end to end, reshaped to one row of 384.  Column 128·n + q of the stacked matrix is column q of the n-th matrix, entry
  128·n + q of the stacked row is entry q of the n-th bias; and a bias vector reshaped to a row reads the vector.  So the
  band of the stacked linear stage that starts at column 128·n is the n-th linear map, and the layer over the stacked
  operands is the layer over the separate ones, entry by entry, with nothing rearranged.
-/
import proofs.«155698_j38422777430259_2_alg».proof.Proof.IdealArray
import proofs.«155698_j38422777430259_2_alg».proof.Proof.LayerSpec
import proofs.«155698_j38422777430259_2_alg».proof.Proof.LibEndToEnd
import Idealize.ShloMosaic.Lib.ValueLayout

noncomputable section

namespace Cert.KernelIdeal.Hand

open Idealize.ShloMosaic Idealize.ShloMosaic.ValueIdx GraphLayer
open Cert.KernelIdeal.Gen

/-- Column 128·n + q of three 128×128 matrices laid side by side is column q of the n-th. -/
theorem stacked_weight (wa wb wc : S128x128.Idx → EReal) (k : Fin 128) (q : Fin 128) (n : Fin 3) (j : Fin 384)
    (hj : j.val = n.val * 128 + q.val) :
    concatenate S128x384 1 [⟨S128x128, wa⟩, ⟨S128x128, wb⟩, ⟨S128x128, wc⟩] concatenates_S128x128_S128x128_S128x128_S128x384_d1 (ix2 k j)
      = (![wa, wb, wc] n) (ix2 k q) := by
  have hq := q.isLt
  refine (EndToEnd.cols_apply (a := 128) (c := 128) (w := 384) (N := 3) (fun n : Fin 3 => (![wa, wb, wc] : Fin 3 → S128x128.Idx → EReal) n)
    concatenates_S128x128_S128x128_S128x128_S128x384_d1 (by decide) k j n (by omega)).trans ?_
  refine congrArg (![wa, wb, wc] n) ?_
  refine congrArg (ix2 k) (Fin.ext ?_)
  show j.val % 128 = q.val
  omega

/-- Entry 128·n + q of three 128-vectors laid end to end is entry q of the n-th. -/
theorem stacked_bias (ba bb bc : S128.Idx → EReal) (q : Fin 128) (n : Fin 3) (j : Fin 384) (hj : j.val = n.val * 128 + q.val) :
    concatenate S384 0 [⟨S128, ba⟩, ⟨S128, bb⟩, ⟨S128, bc⟩] concatenates_S128_S128_S128_S384_d0 (ix1 j) = (![ba, bb, bc] n) (ix1 q) := by
  have hq := q.isLt
  refine concatenate_ofFn_apply (t := S384) (s₁ := S128) (0 : Fin 1) (fun n : Fin 3 => (![ba, bb, bc] : Fin 3 → S128.Idx → EReal) n)
    concatenates_S128_S128_S128_S384_d0 rfl 128 rfl (ix1 j) n ?_ (ix1 q) ?_ (fun b hb => ?_)
  · show j.val / 128 = n.val
    omega
  · show q.val = j.val % 128
    omega
  · match b with
    | ⟨0, _⟩ => exact absurd rfl hb

/-- The band of the stacked linear stage that starts at column 128·n is the n-th linear map. -/
theorem band_is_lin (x : S50000x128.Idx → EReal) (wa wb wc : S128x128.Idx → EReal) (ba bb bc : S128.Idx → EReal)
    (P : Fin 50000) (q : Fin 128) (n : Fin 3) (j : Fin 384) (hj : j.val = n.val * 128 + q.val) :
    wideAt x (concatenate S128x384 1 [⟨S128x128, wa⟩, ⟨S128x128, wb⟩, ⟨S128x128, wc⟩] concatenates_S128x128_S128x128_S128x128_S128x384_d1)
      (shapeCast S1x384 (concatenate S384 0 [⟨S128, ba⟩, ⟨S128, bb⟩, ⟨S128, bc⟩] concatenates_S128_S128_S128_S384_d0) shapeCasts_S384_S1x384) P j
    = lin x (![wa, wb, wc] n) (![ba, bb, bc] n) P q := by
  unfold wideAt lin
  refine congrArg₂ (· + ·) (Finset.sum_congr rfl fun k _ => ?_) ?_
  · rw [stacked_weight wa wb wc k q n j hj]
  · exact (shapeCast_a_1a_apply _ shapeCasts_S384_S1x384 (0 : Fin 1) j).trans (stacked_bias ba bb bc q n j hj)

/-- The convolution stage with its bias vector reshaped to a row is the linear map of the aggregated messages. -/
theorem conv_is_lin (agg : S50000x128.Idx → EReal) (wconv : S128x128.Idx → EReal) (bconv : S128.Idx → EReal)
    (P : Fin 50000) (q : Fin 128) :
    convAt agg wconv (shapeCast S1x128 bconv shapeCasts_S128_S1x128) P q = lin agg wconv bconv P q := by
  unfold convAt lin
  exact congrArg (_ + ·) (shapeCast_a_1a_apply bconv shapeCasts_S128_S1x128 (0 : Fin 1) q)

/-- The layer over the stacked operands is the layer over the separate ones. -/
theorem unstacked (x agg : S50000x128.Idx → EReal) (wa wb wc wconv : S128x128.Idx → EReal) (ba bb bc bconv : S128.Idx → EReal) :
    arrayFn x agg
      (concatenate S128x384 1 [⟨S128x128, wa⟩, ⟨S128x128, wb⟩, ⟨S128x128, wc⟩] concatenates_S128x128_S128x128_S128x128_S128x384_d1)
      (shapeCast S1x384 (concatenate S384 0 [⟨S128, ba⟩, ⟨S128, bb⟩, ⟨S128, bc⟩] concatenates_S128_S128_S128_S384_d0) shapeCasts_S384_S1x384)
      wconv (shapeCast S1x128 bconv shapeCasts_S128_S1x128)
    = layer (Ideal.ofBits .f32 0x00000000#32) x agg wa wb wc wconv ba bb bc bconv := by
  funext i
  obtain ⟨P, q, rfl⟩ : ∃ (P : Fin 50000) (q : Fin 128), i = ix2 P q := ⟨i 0, i 1, eq_ix2 i⟩
  rw [arrayFn_apply, layer_apply]
  unfold blockAt layerAt
  rw [band_is_lin x wa wb wc ba bb bc P q 0 _ (by show 0 + q.val = 0 * 128 + q.val; omega),
    band_is_lin x wa wb wc ba bb bc P q 1 _ (by show 128 + q.val = 1 * 128 + q.val; omega),
    band_is_lin x wa wb wc ba bb bc P q 2 _ (by show 256 + q.val = 2 * 128 + q.val; omega),
    conv_is_lin]
  rfl

end Cert.KernelIdeal.Hand

end
-- ==== Proof.RefLayers.lean ====
/-
  The reference program, layer by layer.

  Every dense stage of the reference — a matrix product with a 128×128 weight plus a 128-entry bias broadcast down the
  rows — reads at (p, q) as (∑k x(p,k)·w(k,q)) + b(q).  The first layer's result is then, entry by entry, the layer
  function of x, of x's aggregated messages and of the first four weight/bias pairs; the program's result the same
  function of the first layer's result, of ITS aggregated messages and of the last four pairs.  The aggregation
  (gather the source rows, scale by the edge weights, sum into the destination rows) stays one unopened function of the
  features, the edge list and the edge weights: the second layer applies the very same function to the first layer's
  result.
-/
import proofs.«155698_j38422777430259_2_alg».proof.Proof.Gen.ReferenceIdeal.Run
import proofs.«155698_j38422777430259_2_alg».proof.Proof.Gen.ReferenceIdeal.Read
import proofs.«155698_j38422777430259_2_alg».proof.Proof.LayerSpec

noncomputable section

namespace Cert.ReferenceIdeal.Layers

open Cert.ReferenceIdeal Cert.ReferenceIdeal.Gen Cert.ReferenceIdeal.Read
open Idealize.ShloMosaic Idealize.ShloMosaic.ValueIdx GraphLayer

/-- The rectifier's floor: the float word of zero. -/
abbrev floor0 : EReal := Ideal.ofBits .f32 0x00000000#32

/-- A dense stage at (p, q): the product's sum over the 128 contracted positions, plus the bias entry q. -/
theorem dense_apply (x : (⟨S50000x128, .f32⟩ : BufTy).Contents (Elt Ideal)) (w : (⟨S128x128, .f32⟩ : BufTy).Contents (Elt Ideal))
    (b : (⟨S128, .f32⟩ : BufTy).Contents (Elt Ideal)) (p : Fin 50000) (q : Fin 128) :
    val_main_v3 (F := Ideal) x w b (ix2 p q) = lin x w b p q := by
  rw [val_main_v3_apply, val_main_v0_apply, val_main_v2_apply, val_main_v1_apply]
  unfold lin
  refine congrArg₂ (· + ·) (Finset.sum_congr rfl fun k _ => ?_) (congrArg b ?_)
  · have el : lidx_main_v0 (ix2 p q) k = ix2 p k := funext fun a => Fin.ext (by match a with | ⟨0, _⟩ => rfl | ⟨1, _⟩ => rfl)
    have er : ridx_main_v0 (ix2 p q) k = ix2 k q := funext fun a => Fin.ext (by match a with | ⟨0, _⟩ => rfl | ⟨1, _⟩ => rfl)
    rw [el, er]
  · exact funext fun a => Fin.ext (by match a with | ⟨0, _⟩ => rfl)

/-- The rectifier's broadcast constant at any entry is the zero word. -/
theorem floor_apply (i : S50000x128.Idx) : val_main_call0_v0 (F := Ideal) i = floor0 := by
  rw [val_main_call0_v0_apply, val_main_call0_cst_apply]; rfl

/-- The first layer's result is the layer function of x, its aggregated messages and the first four weight/bias pairs. -/
theorem first_layer (x0 : (⟨S50000x128, .f32⟩ : BufTy).Contents (Elt Ideal)) (x1 : (⟨S2x640000, .i32⟩ : BufTy).Contents (Elt Ideal))
    (x2 : (⟨S640000x1, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v35 (F := Ideal) x0 x1 x2 x3 x4 x5 x6 x7 x8 x9 x10
      = layer floor0 x0 (val_main_v19 (F := Ideal) x0 x1 x2) x3 x5 x7 x9 x4 x6 x8 x10 := by
  funext i
  obtain ⟨p, q, rfl⟩ : ∃ (p : Fin 50000) (q : Fin 128), i = ix2 p q := ⟨i 0, i 1, eq_ix2 i⟩
  rw [layer_apply]
  show max ((val_main_v3 (F := Ideal) x0 x3 x4 (ix2 p q) + val_main_v3 (F := Ideal) (val_main_v19 (F := Ideal) x0 x1 x2) x9 x10 (ix2 p q))
      + val_main_v3 (F := Ideal) x0 x5 x6 (ix2 p q) * val_main_v3 (F := Ideal) x0 x7 x8 (ix2 p q))
    (val_main_call0_v0 (F := Ideal) (ix2 p q)) = _
  rw [dense_apply, dense_apply, dense_apply, dense_apply, floor_apply]
  rfl

/-- The program's result is the layer function of the first layer's result h, of h's aggregated messages and of the last
    four weight/bias pairs. -/
theorem second_layer (x0 : (⟨S50000x128, .f32⟩ : BufTy).Contents (Elt Ideal)) (x1 : (⟨S2x640000, .i32⟩ : BufTy).Contents (Elt Ideal))
    (x2 : (⟨S640000x1, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))
    (x13 : (⟨S128x128, .f32⟩ : BufTy).Contents (Elt Ideal)) (x14 : (⟨S128, .f32⟩ : BufTy).Contents (Elt Ideal))
    (x15 : (⟨S128x128, .f32⟩ : BufTy).Contents (Elt Ideal)) (x16 : (⟨S128, .f32⟩ : BufTy).Contents (Elt Ideal))
    (x17 : (⟨S128x128, .f32⟩ : BufTy).Contents (Elt Ideal)) (x18 : (⟨S128, .f32⟩ : BufTy).Contents (Elt Ideal)) :
    val_main_v71 (F := Ideal) x0 x1 x2 x3 x4 x5 x6 x7 x8 x9 x10 x11 x12 x13 x14 x15 x16 x17 x18
      = layer floor0 (val_main_v35 (F := Ideal) x0 x1 x2 x3 x4 x5 x6 x7 x8 x9 x10)
          (val_main_v19 (F := Ideal) (val_main_v35 (F := Ideal) x0 x1 x2 x3 x4 x5 x6 x7 x8 x9 x10) x1 x2)
          x11 x13 x15 x17 x12 x14 x16 x18 := by
  funext i
  obtain ⟨p, q, rfl⟩ : ∃ (p : Fin 50000) (q : Fin 128), i = ix2 p q := ⟨i 0, i 1, eq_ix2 i⟩
  rw [layer_apply]
  generalize hH : val_main_v35 (F := Ideal) x0 x1 x2 x3 x4 x5 x6 x7 x8 x9 x10 = H
  have hagg : val_main_v55 (F := Ideal) x0 x1 x2 x3 x4 x5 x6 x7 x8 x9 x10 = val_main_v19 (F := Ideal) H x1 x2 := by
    subst hH; rfl
  have hshape : val_main_v71 (F := Ideal) x0 x1 x2 x3 x4 x5 x6 x7 x8 x9 x10 x11 x12 x13 x14 x15 x16 x17 x18 (ix2 p q)
      = max ((val_main_v3 (F := Ideal) H x11 x12 (ix2 p q) + val_main_v3 (F := Ideal) (val_main_v19 (F := Ideal) H x1 x2) x17 x18 (ix2 p q))
          + val_main_v3 (F := Ideal) H x13 x14 (ix2 p q) * val_main_v3 (F := Ideal) H x15 x16 (ix2 p q))
        (val_main_call0_v0 (F := Ideal) (ix2 p q)) := by
    rw [← hagg]; subst hH; rfl
  rw [hshape, dense_apply, dense_apply, dense_apply, dense_apply, floor_apply]
  rfl

end Cert.ReferenceIdeal.Layers

end
-- ==== Proof.lean ====
/-
  Two stacked graph layers: the Pallas program against the plain one.

  Each layer maps node features x (50000 rows of 128) to
      max( (x·Wa + ba) + (agg(x)·Wconv + bconv) + (x·Wb + bb) ∘ (x·Wc + bc), 0 ),
  where agg(x) gathers, for every edge, the source row of x, scales it by the edge's weight and sums it into the edge's
  destination row.  The Pallas program computes the dense part in a kernel, on five blocks of 10000 rows, against the
  three weight matrices laid side by side and cut apart again after one wide product; the plain program computes four
  separate products.  The aggregation is the same host computation in both, applied first to x and then to the first
  layer's result.

  At the ideal instance (extended reals, exact operations) the two programs agree entry by entry with no law of
  arithmetic at all: a product into a zero accumulator is the sum over the contracted axis on both sides, column
  128·n + q of the stacked matrix is column q of the n-th matrix, a block's row p at grid point t is row 10000·t + p, and
  every sum and product is taken in the same order.  So the finiteness of the inputs is never used.

  The modules: the kernel body on a block, run once symbolically, and the run of the whole program through its two
  regions (for the word-level program and for the idealized one: the same text, read at either instance); the body's
  payload at an entry; the five blocks assembled into the array; the host operations read off the program; the stacked
  operands unstacked; the plain program layer by layer.  This file joins them into the five claims.
-/
import proofs.«155698_j38422777430259_2_alg».proof.Defs
import proofs.«155698_j38422777430259_2_alg».proof.Proof.Gen.Kernel
import proofs.«155698_j38422777430259_2_alg».proof.Proof.Gen.KernelIdeal
import proofs.«155698_j38422777430259_2_alg».proof.Proof.Gen.ReferenceIdeal
import proofs.«155698_j38422777430259_2_alg».proof.Proof.Gen.Pre_finite_inputs
import proofs.«155698_j38422777430259_2_alg».proof.Proof.WordRun
import proofs.«155698_j38422777430259_2_alg».proof.Proof.IdealRun
import proofs.«155698_j38422777430259_2_alg».proof.Proof.IdealHost
import proofs.«155698_j38422777430259_2_alg».proof.Proof.Unstack
import proofs.«155698_j38422777430259_2_alg».proof.Proof.RefLayers
import Idealize.ShloMosaic.Adequacy
import Idealize.ShloMosaic.Init

noncomputable section

namespace Cert.Proof

open Idealize.ShloMosaic Idealize.ShloMosaic.TcCoe Idealize.SL.Sem GraphLayer

/-- The rectifier's floor, the float word of zero. -/
abbrev floor0 : EReal := Ideal.ofBits .f32 0x00000000#32

/-- The array types of the Pallas program's arguments, and of the plain program's (the same shapes under two names). -/
abbrev KFeat : Type := (⟨Cert.KernelIdeal.S50000x128, .f32⟩ : BufTy).Contents (Elt Ideal)
abbrev KEdges : Type := (⟨Cert.KernelIdeal.S2x640000, .i32⟩ : BufTy).Contents (Elt Ideal)
abbrev KAttr : Type := (⟨Cert.KernelIdeal.S640000x1, .f32⟩ : BufTy).Contents (Elt Ideal)
abbrev KMat : Type := (⟨Cert.KernelIdeal.S128x128, .f32⟩ : BufTy).Contents (Elt Ideal)
abbrev KVec : Type := (⟨Cert.KernelIdeal.S128, .f32⟩ : BufTy).Contents (Elt Ideal)
abbrev RFeat : Type := (⟨Cert.ReferenceIdeal.S50000x128, .f32⟩ : BufTy).Contents (Elt Ideal)
abbrev REdges : Type := (⟨Cert.ReferenceIdeal.S2x640000, .i32⟩ : BufTy).Contents (Elt Ideal)
abbrev RAttr : Type := (⟨Cert.ReferenceIdeal.S640000x1, .f32⟩ : BufTy).Contents (Elt Ideal)
abbrev RMat : Type := (⟨Cert.ReferenceIdeal.S128x128, .f32⟩ : BufTy).Contents (Elt Ideal)
abbrev RVec : Type := (⟨Cert.ReferenceIdeal.S128, .f32⟩ : BufTy).Contents (Elt Ideal)

/-- The first layer as a function of the first eleven argument arrays. -/
def firstOf (x0 : KFeat) (x1 : KEdges) (x2 : KAttr) (x3 : KMat) (x4 : KVec) (x5 : KMat) (x6 : KVec) (x7 : KMat) (x8 : KVec)
    (x9 : KMat) (x10 : KVec) : KFeat :=
  layer floor0 x0 (Cert.KernelIdeal.Hand.aggregate x0 x1 x2) x3 x5 x7 x9 x4 x6 x8 x10

/-- Both layers as one function of the nineteen argument arrays: the second layer of the first layer's result, of that
    result's aggregated messages, and of the last eight arrays. -/
def bothOf (x0 : KFeat) (x1 : KEdges) (x2 : KAttr) (x3 : KMat) (x4 : KVec) (x5 : KMat) (x6 : KVec) (x7 : KMat) (x8 : KVec)
    (x9 : KMat) (x10 : KVec) (x11 : KMat) (x12 : KVec) (x13 : KMat) (x14 : KVec) (x15 : KMat) (x16 : KVec) (x17 : KMat)
    (x18 : KVec) : KFeat :=
  layer floor0 (firstOf x0 x1 x2 x3 x4 x5 x6 x7 x8 x9 x10)
    (Cert.KernelIdeal.Hand.aggregate (firstOf x0 x1 x2 x3 x4 x5 x6 x7 x8 x9 x10) x1 x2) x11 x13 x15 x17 x12 x14 x16 x18

/-- Both layers of the Pallas program's launch memory on core c. -/
def bothAt (m : (ℓ : Loc Cert.KernelIdeal.nD Cert.KernelIdeal.τ Cert.KernelIdeal.sig) → Buf (Elt Ideal) ℓ) (c : Dev Cert.KernelIdeal.nD) : KFeat :=
  bothOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))

/-! ## The Pallas program's result -/

/-- What the first region leaves is the first layer. -/
theorem hidden_is (m : (ℓ : Loc Cert.KernelIdeal.nD Cert.KernelIdeal.τ Cert.KernelIdeal.sig) → Buf (Elt Ideal) ℓ) (c : Dev Cert.KernelIdeal.nD) :
    Cert.KernelIdeal.Hand.hidden m c
      = firstOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := by
  unfold Cert.KernelIdeal.Hand.hidden firstOf
  exact Cert.KernelIdeal.Hand.unstacked _ _ _ _ _ _ _ _ _ _

/-- What the second region leaves — the program's result — is both layers. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Hand.pastLayer2 m ρ c (Proc.devRef .tc Cert.KernelIdeal.main_v37) = bothAt m c := by
  refine (Cert.KernelIdeal.Hand.result_is m ρ c).trans ?_
  rw [hidden_is m c]
  unfold bothAt bothOf
  exact Cert.KernelIdeal.Hand.unstacked _ _ _ _ _ _ _ _ _ _

/-! ## The plain program's result -/

/-- The plain program's aggregation is the Pallas program's, operation for operation. -/
theorem agg_same (x : RFeat) (ei : REdges) (ea : RAttr) :
    Cert.ReferenceIdeal.Read.val_main_v19 (F := Ideal) x ei ea = Cert.KernelIdeal.Hand.aggregate x ei ea := by
  unfold Cert.KernelIdeal.Hand.aggregate Cert.KernelIdeal.Hand.aggregateBy Cert.KernelIdeal.Hand.sources Cert.KernelIdeal.Hand.targets
  unfold Cert.ReferenceIdeal.Read.val_main_v19 Cert.ReferenceIdeal.Read.val_main_v18 Cert.ReferenceIdeal.Read.val_main_v17
    Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_c Cert.ReferenceIdeal.Read.val_main_c_0
    Cert.ReferenceIdeal.Read.val_main_cst
  rfl

/-- The plain program's result is both layers. -/
theorem reference_result (x0 : RFeat) (x1 : REdges) (x2 : RAttr) (x3 : RMat) (x4 : RVec) (x5 : RMat) (x6 : RVec) (x7 : RMat)
    (x8 : RVec) (x9 : RMat) (x10 : RVec) (x11 : RMat) (x12 : RVec) (x13 : RMat) (x14 : RVec) (x15 : RMat) (x16 : RVec)
    (x17 : RMat) (x18 : RVec) :
    Cert.ReferenceIdeal.Read.val_main_v71 (F := Ideal) x0 x1 x2 x3 x4 x5 x6 x7 x8 x9 x10 x11 x12 x13 x14 x15 x16 x17 x18
      = bothOf x0 x1 x2 x3 x4 x5 x6 x7 x8 x9 x10 x11 x12 x13 x14 x15 x16 x17 x18 := by
  rw [Cert.ReferenceIdeal.Layers.second_layer, Cert.ReferenceIdeal.Layers.first_layer, agg_same, agg_same]
  rfl

/-! ## The claims -/

theorem frame_word : Cert.frame_Kernel := fun m ρ _ => Cert.Kernel.Hand.arguments_kept m ρ

theorem frame_ideal : Cert.frame_KernelIdeal := fun m ρ _ => Cert.KernelIdeal.Hand.arguments_kept m ρ

theorem frame_plain : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result at both layers of the argument arrays, which agree. -/
theorem algebraic : Cert.algebraic_KernelIdeal_ReferenceIdeal := by
  intro m ρ m' ρ' _ hagree
  refine ⟨fun c => bothAt m c, ?_, ?_⟩
  · exact (θ_run Cert.KernelIdeal.defs _ _).mono
      (fun r h c => ⟨(h c _ (Cert.KernelIdeal.Hand.mem_uc Cert.KernelIdeal.main_v37 (by decide))).trans (kernel_result m ρ c),
        Cert.KernelIdeal.Hand.arguments_of m ρ c r.2.mem (h c)⟩)
      (Cert.KernelIdeal.Hand.runs_to_end m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.ReferenceIdeal.Read.val_main_v71_eq, h0, h1, h2, h3, h4, h5, h6, h7, h8, h9, h10, h11, h12, h13, h14, h15, h16, h17, h18]
    exact reference_result _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_word, frame_ideal, frame_plain, preserves, algebraic⟩

end Cert.Proof

end
